-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S32 .f32) (main_arg7 : FVec F S32x64 .f32) (main_arg8 : FVec F S64 .f32) (main_arg9 : FVec F S64x1 .f32) (main_arg10 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S16x32 .f32) (main_arg6 : FVec F S32 .f32) (main_arg7 : FVec F S32x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S100000x64 : Shape := ⟨2, ![100000, 64]⟩
abbrev S5000x64 : Shape := ⟨2, ![5000, 64]⟩
abbrev S3300000x64 : Shape := ⟨2, ![3300000, 64]⟩
abbrev S1x64 : Shape := ⟨2, ![1, 64]⟩
abbrev S1000x64 : Shape := ⟨2, ![1000, 64]⟩
abbrev S1000 : Shape := ⟨1, ![1000]⟩
abbrev S1000x1 : Shape := ⟨2, ![1000, 1]⟩
abbrev S1x1 : Shape := ⟨2, ![1, 1]⟩

abbrev nBuf : Space → Nat
  | .hbm => 100
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x16, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000x16, .f32⟩
  | .hbm, ⟨43, _⟩ => ⟨S_, .f32⟩
  | .hbm, ⟨44, _⟩ => ⟨S100000x16, .f32⟩
  | .hbm, ⟨45, _⟩ => ⟨S3300000x1, .i32⟩
  | .hbm, ⟨46, _⟩ => ⟨S100000x16, .f32⟩
  | .hbm, ⟨47, _⟩ => ⟨S1x16, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S_, .f32⟩
  | .hbm, ⟨59, _⟩ => ⟨S100000x32, .f32⟩
  | .hbm, ⟨60, _⟩ => ⟨S3300000x1, .i32⟩
  | .hbm, ⟨61, _⟩ => ⟨S100000x32, .f32⟩
  | .hbm, ⟨62, _⟩ => ⟨S1x32, .f32⟩
  | .hbm, ⟨63, _⟩ => ⟨S100000x64, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S_, .f32⟩
  | .hbm, ⟨80, _⟩ => ⟨S1000x64, .f32⟩
  | .hbm, ⟨81, _⟩ => ⟨S100000x1, .i32⟩
  | .hbm, ⟨82, _⟩ => ⟨S1000x64, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S1000, .f32⟩
  | .hbm, ⟨87, _⟩ => ⟨S100000x1, .i32⟩
  | .hbm, ⟨88, _⟩ => ⟨S1000, .f32⟩
  | .hbm, ⟨89, _⟩ => ⟨S_, .f32⟩
  | .hbm, ⟨90, _⟩ => ⟨S1000, .f32⟩
  | .hbm, ⟨91, _⟩ => ⟨S1000, .f32⟩
  | .hbm, ⟨92, _⟩ => ⟨S1000x1, .f32⟩
  | .hbm, ⟨93, _⟩ => ⟨S1000x64, .f32⟩
  | .hbm, ⟨94, _⟩ => ⟨S1000x64, .f32⟩
  | .hbm, ⟨95, _⟩ => ⟨S1000x1, .f32⟩
  | .hbm, ⟨96, _⟩ => ⟨S1x1, .f32⟩
  | .hbm, ⟨97, _⟩ => ⟨S1000x1, .f32⟩
  | .hbm, ⟨98, _⟩ => ⟨S1000x1, .f32⟩
  | .hbm, ⟨99, _⟩ => ⟨S1000, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S1x32, .f32⟩
  | .local _ .vmem, ⟨20, _⟩ => ⟨S32x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x64_S5000x64_1_0_0_1_n_n_wf : DotDims.WF S5000x32 S32x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S100000x64 : Shape := ⟨2, ![100000, 64]⟩
abbrev S3300000x64 : Shape := ⟨2, ![3300000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x16, .f32⟩
  | 4 => ⟨S16, .f32⟩
  | 5 => ⟨S16x32, .f32⟩
  | 6 => ⟨S32, .f32⟩
  | 7 => ⟨S32x64, .f32⟩
  | 8 => ⟨S64, .f32⟩
  | 9 => ⟨S64x1, .f32⟩
  | 10 => ⟨S1, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x16, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x16, .f32⟩
  | 61 => ⟨S3300000x1, .f32⟩
  | 62 => ⟨S3300000x16, .f32⟩
  | 63 => ⟨S3300000x16, .f32⟩
  | 64 => ⟨S_, .f32⟩
  | 65 => ⟨S100000x16, .f32⟩
  | 66 => ⟨S3300000x1, .i32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S100000x32, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x32, .f32⟩
  | 84 => ⟨S3300000x1, .f32⟩
  | 85 => ⟨S3300000x32, .f32⟩
  | 86 => ⟨S3300000x32, .f32⟩
  | 87 => ⟨S_, .f32⟩
  | 88 => ⟨S100000x32, .f32⟩
  | 89 => ⟨S3300000x1, .i32⟩
  | 90 => ⟨S100000x32, .f32⟩
  | 91 => ⟨S1x32, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S100000x64, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x64, .f32⟩
  | 107 => ⟨S3300000x1, .f32⟩
  | 108 => ⟨S3300000x64, .f32⟩
  | 109 => ⟨S3300000x64, .f32⟩
  | 110 => ⟨S_, .f32⟩
  | 111 => ⟨S100000x64, .f32⟩
  | 112 => ⟨S3300000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S1000x64, .f32⟩
  | 122 => ⟨S100000x1, .i32⟩
  | 123 => ⟨S1000x64, .f32⟩
  | 124 => ⟨S_, .f32⟩
  | 125 => ⟨S100000, .f32⟩
  | 126 => ⟨S_, .f32⟩
  | 127 => ⟨S1000, .f32⟩
  | _ => ⟨S100000x128, .f32⟩

abbrev hbmTy0_1 (i : Nat) : BufTy := match i % 128 with
  | 0 => ⟨S100000x1, .i32⟩
  | 1 => ⟨S1000, .f32⟩
  | 2 => ⟨S_, .f32⟩
  | 3 => ⟨S1000, .f32⟩
  | 4 => ⟨S1000, .f32⟩
  | 5 => ⟨S1000x1, .f32⟩
  | 6 => ⟨S1000x64, .f32⟩
  | 7 => ⟨S1000x64, .f32⟩
  | 8 => ⟨S1000x1, .f32⟩
  | 9 => ⟨S1x1, .f32⟩
  | 10 => ⟨S1000x1, .f32⟩
  | 11 => ⟨S1000x1, .f32⟩
  | 12 => ⟨S1000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x1_S1000x1_1_0_0_1_n_n_wf : DotDims.WF S1000x64 S64x1 S1000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

class Facts : Prop extends Facts₀ where

variable [Facts]
-- ==== Proof.LibRowGatherScatter.lean ====
/-
  The host's row gather and accumulating row scatter, each read at one entry, for any sizes.

  * The row gather `x[idx]` of an `[N, D]` array at `E` row indices (start indices `[E, 1]`, the operand's axis 0
    collapsed, slices `[1, D]`): entry `(e, q)` of the result is the operand's entry `(r, q)`, where `r` is the start
    word `idx[e, 0]` read as a signed integer and clamped into `[0, N − 1]`. The row `r` depends on the start word
    only: not on `D`, not on the operand.
  * The accumulating row scatter of `E` rows of width `D` into an `[N, D]` array (scatter indices `[E, 1]`, the
    operand's axis 0 inserted, update windows `[1, D]`), over the extended reals: entry `(n, q)` of the result is the
    operand's entry plus the sum of the updates' entries `(e, q)` over the rows `e` whose index word `idx[e, 0]`,
    read as a signed integer and NOT clamped, is `n`. The set of rows `e` landing on `n` depends on the index words
    only: not on `D`, the column, the operand or the updates.
-/
import Idealize.ShloMosaic.Lib.ValueIdx

noncomputable section

open scoped BigOperators

namespace Cert.Lib.RowGatherScatter

open Idealize.ShloMosaic Idealize.ShloMosaic.ValueIdx

/-! ## The row gather -/

/-- The dimension numbers of the row gather: operand `[N, D]`, start indices `[E, 1]`, result `[E, D]`; the result's
    axis 1 is the offset axis, the operand's axis 0 is collapsed and is the one the start index names, slices are
    `[1, D]`. Their conditions `wf` are decided on literal shapes. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for the start word `b`: `b` read as a signed integer and clamped into `[0, N − 1]`
    (a negative word reads row 0, a word beyond the last row reads the last row). -/
def srcRow (N : ℕ) (hN : 0 < N) {w : ℕ} (b : BitVec w) : Fin N := ⟨min b.toInt.toNat (N - 1), by omega⟩

/-- THE ROW GATHER READ AT `(e, q)`: the operand at row `srcRow (idx[e, 0])`, column `q`. -/
theorem gather_rows_apply {N E D w : ℕ} (hN : 0 < N)
    (wf : GatherDims.WF ⟨2, ![N, D]⟩ ⟨2, ![E, 1]⟩ ⟨2, ![E, D]⟩ [1] [0] [] [0] [] 1 ![1, D]) {α : Type}
    (x : (⟨2, ![N, D]⟩ : Shape).Idx → α) (idx : IVec ⟨2, ![E, 1]⟩ w) (e : Fin E) (q : Fin D) :
    Host.gather (rowGather N E D wf) x idx (ix2 e q) = x (ix2 (srcRow N hN (idx (ix2 e 0))) q) := by
  -- axis 0: collapsed, so no offset; the start is the clamped start word
  have h0 : (rowGather N E D wf).start (ix2 e q) idx 0 + (rowGather N E D wf).batchCoord (ix2 e q) 0
      + (rowGather N E D wf).offCoord (ix2 e q) 0 = (srcRow N hN (idx (ix2 e 0))).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: not named by the start index, so the start is 0; the offset is the column
  have h1 : (rowGather N E D wf).start (ix2 e q) idx 1 + (rowGather N E D wf).batchCoord (ix2 e q) 1
      + (rowGather N E D wf).offCoord (ix2 e q) 1 = q.val := by
    rw [GatherDims.batchCoord_eq_zero _ _ _ List.not_mem_nil]
    have hs : (rowGather N E D wf).start (ix2 e q) idx 1 = 0 := by
      unfold GatherDims.start
      exact dif_neg (fun h => absurd (List.mem_singleton.mp h) (show ¬ (1 : Fin 2) = 0 by decide))
    have ho : (rowGather N E D wf).offCoord (ix2 e q) 1 = q.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hs, ho]; omega
  unfold Host.gather
  congr 1
  funext a
  refine Fin.ext ?_
  match a with
  | ⟨0, _⟩ => exact h0
  | ⟨1, _⟩ => exact h1

/-! ## The accumulating row scatter -/

/-- An update's result index is a given operand index exactly when, on every operand axis, the start (read signed,
    not clamped) plus the window coordinate is that index's coordinate: in particular the sum is then inside the
    operand on every axis, which is the condition for the update to land at all. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := h a
      show d.start j idx a + (d.window j a : ℤ) = (((d.start j idx a + (d.window j a : ℤ)).toNat : ℕ) : ℤ)
      omega
    · intro h'
      funext a
      refine Fin.ext ?_
      have := h' a
      show (d.start j idx a + (d.window j a : ℤ)).toNat = (i a).val
      omega
  · rename_i h
    constructor
    · intro h'; cases h'
    · intro h'
      exfalso; apply h; intro a
      have := h' a
      have := (i a).isLt
      constructor <;> omega

/-- The dimension numbers of the accumulating row scatter: operand `[N, D]`, scatter indices `[E, 1]`, updates
    `[E, D]`; the updates' axis 1 is the window axis, the operand's axis 0 is inserted and is the one the scatter
    index names. Their conditions `wf` are decided on literal shapes. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (q' : Fin D)

/-- On the operand's axis 0 the start of update `(e, q')` is the index word `idx[e, 0]` read signed … -/
theorem rowScatter_start_row : (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2)
      (rowScatter N E D wf).scatterDimsToOperandDims, List.idxOf_lt_length_iff.2 (List.mem_singleton.mpr rfl)⟩
      = ix2 e 0 := by
    funext b; refine Fin.ext ?_
    match b with
    | ⟨0, _⟩ => rfl
    | ⟨1, _⟩ => rfl
  rw [hsi]

/-- … and on axis 1, which the scatter index does not name, it is 0. -/
theorem rowScatter_start_col : (rowScatter N E D wf).start (ix2 e q') idx 1 = 0 := by
  unfold ScatterDims.start
  exact dif_neg (fun h => absurd (List.mem_singleton.mp h) (show ¬ (1 : Fin 2) = 0 by decide))

/-- The window coordinate of update `(e, q')` is 0 on the inserted axis 0 … -/
theorem rowScatter_window_row : (rowScatter N E D wf).window (ix2 e q') 0 = 0 := by
  unfold ScatterDims.window
  refine dif_neg (fun h => ?_)
  have h2 := of_decide_eq_true (List.mem_filter.mp h).2
  exact h2 (List.mem_singleton.mpr rfl)

/-- … and the update's column `q'` on axis 1. -/
theorem rowScatter_window_col : (rowScatter N E D wf).window (ix2 e q') 1 = q'.val := by
  unfold ScatterDims.window
  rw [dif_pos (show (1 : Fin 2) ∈ (rowScatter N E D wf).sKept from List.mem_filter.mpr ⟨List.mem_finRange _,
    decide_eq_true (fun h => absurd (List.mem_singleton.mp h) (show ¬ (1 : Fin 2) = 0 by decide))⟩)]
  rfl

/-- Update `(e, q')` lands on the operand's entry `(n, q)` exactly when the index word `idx[e, 0]`, read signed, is
    `n` and the columns agree. -/
theorem rowScatter_resultIdx?_iff (n : Fin N) (q : Fin D) :
    (rowScatter N E D wf).resultIdx? (ix2 e q') idx = some (ix2 n q)
      ↔ (idx (ix2 e 0)).toInt = (n.val : ℤ) ∧ q' = q := by
  rw [resultIdx?_eq_some_iff]
  constructor
  · intro h
    have h0 := h 0
    have h1 := h 1
    rw [rowScatter_start_row, rowScatter_window_row] at h0
    rw [rowScatter_start_col, rowScatter_window_col] at h1
    refine ⟨?_, Fin.ext ?_⟩
    · have : ((ix2 n q : (⟨2, ![N, D]⟩ : Shape).Idx) 0).val = n.val := rfl
      omega
    · have : ((ix2 n q : (⟨2, ![N, D]⟩ : Shape).Idx) 1).val = q.val := rfl
      omega
  · rintro ⟨hn, rfl⟩ a
    match a with
    | ⟨0, _⟩ =>
      show (rowScatter N E D wf).start (ix2 e q') idx 0 + ((rowScatter N E D wf).window (ix2 e q') 0 : ℤ) = (n.val : ℤ)
      rw [rowScatter_start_row, rowScatter_window_row, hn]; simp
    | ⟨1, _⟩ =>
      show (rowScatter N E D wf).start (ix2 e q') idx 1 + ((rowScatter N E D wf).window (ix2 e q') 1 : ℤ) = (q'.val : ℤ)
      rw [rowScatter_start_col, rowScatter_window_col]; simp

end RowScatter

/-- THE ACCUMULATING ROW SCATTER READ AT `(n, q)`: the operand's entry plus the sum, over the update rows `e` whose
    index word `idx[e, 0]` read signed is `n`, of the updates' entries `(e, q)`. -/
theorem scatter_rows_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatter N E D wf) x idx upd (ix2 n q)
      = x (ix2 n q) + ∑ e ∈ Finset.univ.filter (fun e : Fin E => (idx (ix2 e 0)).toInt = (n.val : ℤ)), upd (ix2 e q) := by
  unfold Ideal.hostScatterAdd
  -- the updates landing on (n, q) are the entries (e, q) of the rows e landing on n
  have himg : (Finset.univ.filter fun j => (rowScatter N E D wf).resultIdx? j idx = some (ix2 n q))
      = (Finset.univ.filter fun e : Fin E => (idx (ix2 e 0)).toInt = (n.val : ℤ)).image (fun e => ix2 e q) := by
    ext j
    obtain ⟨e, q', rfl⟩ : ∃ e q', j = ix2 e q' := ⟨j 0, j 1, eq_ix2 j⟩
    simp only [Finset.mem_filter, Finset.mem_univ, true_and, Finset.mem_image, rowScatter_resultIdx?_iff]
    constructor
    · rintro ⟨h, rfl⟩; exact ⟨e, h, rfl⟩
    · rintro ⟨e', h, heq⟩
      have h0 : e' = e := congrFun heq 0
      have h1 : q = q' := congrFun heq 1
      subst h0; exact ⟨h, h1.symm⟩
  rw [himg, Finset.sum_image (fun a _ b _ hab => (congrFun hab 0 : a = b))]

end Cert.Lib.RowGatherScatter

end
-- ==== Proof.LibAggregate.lean ====
/-
  One graph aggregation read at one entry, over the extended reals, for any sizes.

  The aggregation starts from the zero `[N, D]` array and scatter-adds, along the target indices `ci`, the `E` rows
  `nrm[e] · feat[ri[e], :]`: the per-edge normalization, a length-`E` vector broadcast to a column `[E, 1]` and then to
  `[E, D]`, times the rows of `feat` gathered at the source indices `ri`. Entry `(n, q)` of the result is
  `0 + ∑ nrm[e] · feat[r(e), q]` over the edges `e` whose target word `ci[e, 0]`, read signed, is `n`, where `r(e)` is the
  source word `ri[e, 0]` read signed and clamped into `[0, N − 1]`.
-/
import proofs.«165064_j6184752906610_2_alg».proof.Proof.LibRowGatherScatter
import Idealize.ShloMosaic.PureOps.Ideal.Laws
import Idealize.ShloMosaic.Lib.IdealHost
import Idealize.ShloMosaic.Lib.Pipeline.Value

noncomputable section

open scoped BigOperators

namespace Cert.Lib.Aggregate

open Idealize.ShloMosaic Idealize.ShloMosaic.ValueIdx Cert.Lib.RowGatherScatter

/-- A length-`E` vector broadcast to a column `[E, 1]` and then across `D` columns, read at `(e, q)`: entry `e` of the
    vector, whatever the column. -/
theorem bcast_col_apply {E D : ℕ} {α : Type} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, D]⟩ ![0, 1]) (e : Fin E) (q : Fin D) :
    broadcastInDim ⟨2, ![E, D]⟩ ![0, 1] h2 (broadcastInDim ⟨2, ![E, 1]⟩ ![0] h1 v) (ix2 e q) = v (ix1 e) := by
  -- the column at (e, 0): axis 0 keeps the row (row 0 when E = 1, the only row), the unit axis 1 reads 0
  refine (broadcastInDim_apply ![0, 1] h2 _ (ix2 e q) (ix2 e (0 : Fin 1)) (fun a => ?_)).trans ?_
  · match a with
    | ⟨0, _⟩ =>
      show e.val = if E = 1 then 0 else e.val
      split_ifs with hE
      · have := e.isLt; omega
      · rfl
    | ⟨1, _⟩ =>
      exact (if_pos rfl).symm
  -- the vector at e
  · refine broadcastInDim_apply ![0] h1 v (ix2 e (0 : Fin 1)) (ix1 e) (fun a => ?_)
    match a with
    | ⟨0, _⟩ =>
      show e.val = if E = 1 then 0 else e.val
      split_ifs with hE
      · have := e.isLt; omega
      · rfl

/-- THE AGGREGATION READ AT `(n, q)`: zero plus the sum, over the edges `e` whose target word `ci[e, 0]` read signed
    is `n`, of the edge's normalization times entry `q` of the source row `srcRow (ri[e, 0])` of `feat`. -/
theorem aggregate_apply {N E D w : ℕ} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (nrm : FVec Ideal ⟨1, ![E]⟩ .f32) (ci ri : IVec ⟨2, ![E, 1]⟩ w) (feat : FVec Ideal ⟨2, ![N, D]⟩ .f32)
    (n : Fin N) (q : Fin D) :
    Host.scatterAdd (F := Ideal) (rowScatter N E D wfs)
        (broadcastInDim ⟨2, ![N, D]⟩ ![] hb0 (constant ⟨0, ![]⟩ .f32 0x00000000#32)) ci
        (mulf (broadcastInDim ⟨2, ![E, D]⟩ ![0, 1] h2 (broadcastInDim ⟨2, ![E, 1]⟩ ![0] h1 nrm))
          (Host.gather (rowGather N E D wfg) feat ri)) (ix2 n q)
      = 0 + ∑ e ∈ Finset.univ.filter (fun e : Fin E => (ci (ix2 e 0)).toInt = (n.val : ℤ)),
          nrm (ix1 e) * feat (ix2 (srcRow N hN (ri (ix2 e 0))) q) := by
  unfold Host.scatterAdd
  rw [Ideal.hostScatterAdd_def, scatter_rows_apply]
  congr 1
  · -- the operand is the zero array
    rw [broadcastInDim_scalar_apply, constant_apply, Ideal.ofBits_zero_f32]
  · -- each update entry is the edge's normalization times the gathered entry
    refine Finset.sum_congr rfl (fun e _ => ?_)
    rw [mulf_apply, gather_rows_apply hN, bcast_col_apply]

end Cert.Lib.Aggregate

end
-- ==== Proof.LibVecGather.lean ====
/-
  A flat array gathered at a column of start indices, read at an entry.

  Indexing a length-N array by a list of E positions is a gather whose start indices form an E×1 array and whose
  result has one entry per position.  Entry `e` of the result is the array at the position word `idx[e, 0]`, read
  as a signed integer and clamped into `[0, N − 1]` (a negative word reads entry 0, a word beyond the end the last
  entry) — the same source position as for a row gather of an N×D matrix at the same start indices.
-/
import Idealize.ShloMosaic.Lib.ValueIdx

noncomputable section

namespace Cert.Lib.VecGather

open Idealize.ShloMosaic Idealize.ShloMosaic.ValueIdx

/-- The dimension numbers of the gather: operand `[N]`, start indices `[E, 1]`, result `[E]`; no offset axis, the
    operand's one axis collapsed and named by the start index, slices of one entry. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the operand at the start word `idx[e, 0]`, read signed and clamped into `[0, N − 1]`. -/
theorem gather_vec_apply {N E w : ℕ} (hN : 0 < N)
    (wf : GatherDims.WF ⟨1, ![N]⟩ ⟨2, ![E, 1]⟩ ⟨1, ![E]⟩ [] [0] [] [0] [] 1 ![1]) {α : Type}
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.VecGather

end
-- ==== Proof.LibRealEntries.lean ====
/-
  General facts about extended-real arrays whose entries are all real numbers. Nothing here mentions a program.

  * `AllReal v`: every entry of `v` is a real number (neither infinity). It is kept by finite sums and products, by a
    selection between two arrays, by the reciprocal square root of an entry raised to at least one, and — whatever the
    indices are — by a gather (an entry of the result is an entry of the operand) and by an accumulating scatter (an
    entry of the result is the operand's entry plus a finite sum of update entries).
  * The coercion of a finite real sum into the extended reals is the sum of the coercions.
  * The two forms of a variance agree on real columns: for n = the number of rows, n ≠ 0, and μ = (Σ h)/n,
        (Σ (h − μ)²)/n = (Σ h²)/n − μ² ,
    each quotient the host's division by the real n. With an infinite entry the two sides need not agree, which is
    why a certificate that meets both forms has to show its column real first.
-/
import Idealize.ShloMosaic.PureOps.Ideal
import Idealize.ShloMosaic.PureOps.Ideal.Laws

noncomputable section

namespace Cert.LibRealEntries

open Idealize.ShloMosaic

/-- `1.0` denotes the real 1. -/
theorem ofBits_one : Ideal.ofBits .f32 0x3F800000#32 = ((1 : ℝ) : EReal) := by
  simp [Ideal.ofBits, Ideal.ieee, -EReal.coe_mul]; norm_num

/-! ## Every entry a real number -/

/-- Every entry of the array is a real number (neither infinity). -/
def AllReal {S : Shape} (v : S.Idx → EReal) : Prop := ∀ i, ∃ r : ℝ, v i = (r : EReal)

/-! ## Finite sums, and the two forms of the variance -/

/-- The coercion of a finite real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For a column of real numbers h over n = card ι rows (n ≠ 0), with mean μ = (Σ h)/n:
    (Σ (h − μ)²)/n = (Σ h²)/n − μ².  Both quotients are the host's division by the real n. -/
theorem var_forms_eq {ι : Type} [Fintype ι] (h : ι → EReal) (hr : ∀ k, ∃ r : ℝ, h k = (r : EReal)) (n : ℝ)
    (hn : n = (Fintype.card ι : ℝ)) (hn0 : n ≠ 0) :
    Ideal.div (∑ k, (h k - Ideal.div (∑ k, h k) (n : EReal)) * (h k - Ideal.div (∑ k, h k) (n : EReal))) (n : EReal)
      = Ideal.div (∑ k, h k * h k) (n : EReal)
        - Ideal.div (∑ k, h k) (n : EReal) * Ideal.div (∑ k, h k) (n : EReal) := by
  choose r hr using hr
  have hh : h = fun k => (r k : EReal) := funext hr
  subst hh
  simp only [Ideal.div_coe hn0]
  simp only [← EReal.coe_mul, ← coe_sum, ← EReal.coe_sub]
  congr 1
  have hc : (∑ _k : ι, (1 : ℝ)) = n := by simp [hn]
  have hn1 : n * (1 / n) = 1 := by field_simp
  have e : ∀ k, (r k - (∑ k, r k) * (1 / n)) * (r k - (∑ k, r k) * (1 / n))
      = r k * r k - 2 * ((∑ k, r k) * (1 / n)) * r k + ((∑ k, r k) * (1 / n)) * ((∑ k, r k) * (1 / n)) * 1 := fun k => by ring
  simp only [e, Finset.sum_add_distrib, Finset.sum_sub_distrib, ← Finset.mul_sum, hc]
  have : ((∑ k, r k) * (1 / n)) * ((∑ k, r k) * (1 / n)) * n = (∑ k, r k) * (∑ k, r k) * (1 / n) * (n * (1 / n)) := by ring
  rw [this, hn1]; ring

/-! ## Real numbers are closed under what the layer does -/

/-- A real number plus a finite sum of real numbers is a real number. -/
theorem real_add_sum {ι : Type} (s : Finset ι) (a : EReal) (f : ι → EReal) (ha : ∃ r : ℝ, a = (r : EReal))
    (hf : ∀ j, ∃ r : ℝ, f j = (r : EReal)) : ∃ r : ℝ, a + ∑ j ∈ s, f j = (r : EReal) := by
  obtain ⟨ra, hra⟩ := ha
  choose rf hrf using hf
  refine ⟨ra + ∑ j ∈ s, rf j, ?_⟩
  rw [EReal.coe_add, coe_sum, hra]
  exact congrArg (fun t => (ra : EReal) + t) (Finset.sum_congr rfl fun j _ => hrf j)

/-- A finite sum of real numbers is a real number. -/
theorem real_sum {ι : Type} (s : Finset ι) (f : ι → EReal) (hf : ∀ j, ∃ r : ℝ, f j = (r : EReal)) :
    ∃ r : ℝ, ∑ j ∈ s, f j = (r : EReal) := by
  choose rf hrf using hf
  exact ⟨∑ j ∈ s, rf j, by rw [coe_sum]; exact Finset.sum_congr rfl fun j _ => hrf j⟩

/-- A product of two real numbers is a real number. -/
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The reciprocal square root of max(d, 1) is a real number when d is: max(d, 1) ≥ 1 is neither negative nor 0. -/
theorem real_rsqrt_max_one {d : EReal} (hd : ∃ r : ℝ, d = (r : EReal)) :
    ∃ r : ℝ, Ideal.rsqrt (max d ((1 : ℝ) : EReal)) = (r : EReal) := by
  obtain ⟨rd, rfl⟩ := hd
  have h1 : (1 : ℝ) ≤ max rd 1 := le_max_right rd 1
  refine ⟨(Real.sqrt (max rd 1))⁻¹, ?_⟩
  rw [← EReal.coe_strictMono.monotone.map_max, Ideal.rsqrt_coe, if_neg (by linarith), if_neg (by linarith)]

/-- A choice between two real numbers is a real number. -/
theorem real_select (c : BitVec 1) {a b : EReal} (ha : ∃ r : ℝ, a = (r : EReal)) (hb : ∃ r : ℝ, b = (r : EReal)) :
    ∃ r : ℝ, Scalar.select c a b = (r : EReal) := by
  unfold Scalar.select
  split
  · exact ha
  · exact hb

/-- The literal 0.0 is the real number 0. -/
theorem real_zero : ∃ r : ℝ, FloatOps.ofBits (F := Ideal) .f32 0x00000000#32 = (r : EReal) :=
  ⟨0, by rw [Ideal.ofBits_def, Ideal.ofBits_zero_f32]; rfl⟩

/-- The literal 1.0 is the real number 1. -/
theorem real_one : ∃ r : ℝ, FloatOps.ofBits (F := Ideal) .f32 0x3F800000#32 = (r : EReal) :=
  ⟨1, by rw [Ideal.ofBits_def, ofBits_one]⟩

/-! ## Gathers and accumulating scatters, whatever their indices -/

/-- An entry of a gathered array is an entry of its operand. -/
theorem allReal_gather {s si t : Shape} {w : Nat} (d : GatherDims s si t) (x : s.Idx → EReal) (idx : IVec si w)
    (hx : AllReal x) : AllReal (Host.gather d x idx) :=
  fun j => hx (d.operandIdx j idx)

/-- An entry of an accumulating scatter is the operand's entry plus a finite sum of update entries. -/
theorem allReal_scatterAdd {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  show ∃ r : ℝ, FloatOps.hostScatterAdd d .single x idx upd i = (r : EReal)
  rw [Ideal.hostScatterAdd_def]
  exact real_add_sum _ (x i) upd (hx i) hu

end Cert.LibRealEntries

end
-- ==== Proof.LibGraphOps.lean ====
/-
  The host operations of a graph aggregation over the extended reals, each read at one entry, for any sizes
  N (nodes), E (edges), D (features).

  * A gather index word is first made non-negative (a negative word has N added); the row a gather then reads for
    edge e, `src`, is that word read signed and clamped into [0, N − 1]. An accumulating scatter does not clamp: edge e
    lands on node n exactly when its target word read signed is n (`lands`).
  * The plain aggregation at (n, q) is 0 + Σ feat[src(e), q] over the edges e landing on n; the normalized one
    multiplies each term by the edge's factor nrm[e], the same in every column q.
  * The per-edge factor is the node factor at the source row of the edge times the node factor at the row its target
    word reads.
  * An edge that lands on n has a non-negative target word, so making it non-negative and clamping change nothing:
    the row it reads is n itself.
  * The node factor 1/√deg (0 where the degree is not positive) is a real number at every node: the degree, zeros plus
    a finite sum of ones, is real; where it is positive its reciprocal square root is real, elsewhere the entry is 0.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.KernelVsHost
import proofs.«165064_j6184752906610_2_alg».proof.Proof.LibRowGatherScatter
import proofs.«165064_j6184752906610_2_alg».proof.Proof.LibAggregate
import proofs.«165064_j6184752906610_2_alg».proof.Proof.LibVecGather
import proofs.«165064_j6184752906610_2_alg».proof.Proof.LibRealEntries

noncomputable section

open scoped BigOperators

namespace Cert.GraphOps

open Idealize.ShloMosaic Idealize.ShloMosaic.ValueIdx Cert.Lib.RowGatherScatter Cert.Lib.Aggregate Cert.Lib.VecGather Cert.LibRealEntries

variable {N E D : ℕ}

/-- A gather index made non-negative the way the host does it: a negative word has N added. -/
def nrmIdx (hbz : (⟨0, ![]⟩ : Shape).BroadcastsInDim ⟨1, ![E]⟩ ![]) (NN : BitVec 32) (v : IVec ⟨1, ![E]⟩ 32) : IVec ⟨1, ![E]⟩ 32 :=
  select (cmpi .slt v (broadcastInDim ⟨1, ![E]⟩ ![] hbz (constantI ⟨0, ![]⟩ 32 0#32)))
    (addi v (broadcastInDim ⟨1, ![E]⟩ ![] hbz (constantI ⟨0, ![]⟩ 32 NN))) v

/-- A length-E index vector as the E×1 column of start / scatter indices. -/
def col1 (hc : (⟨1, ![E]⟩ : Shape).BroadcastsInDim ⟨2, ![E, 1]⟩ ![0]) (v : IVec ⟨1, ![E]⟩ 32) : IVec ⟨2, ![E, 1]⟩ 32 :=
  broadcastInDim ⟨2, ![E, 1]⟩ ![0] hc v

/-- The edges whose target word, read signed, is n. -/
def lands (col : IVec ⟨1, ![E]⟩ 32) (n : Fin N) : Finset (Fin E) :=
  Finset.univ.filter fun e : Fin E => (col (ix1 e)).toInt = (n.val : ℤ)

/-- The row a gather reads for edge e: the index word made non-negative, read signed, clamped into [0, N-1]. -/
def src (hN : 0 < N) (hbz : (⟨0, ![]⟩ : Shape).BroadcastsInDim ⟨1, ![E]⟩ ![]) (NN : BitVec 32) (v : IVec ⟨1, ![E]⟩ 32) (e : Fin E) : Fin N :=
  srcRow N hN (nrmIdx hbz NN v (ix1 e))

/-- The plain aggregation: zeros scatter-added, along the target indices, with the rows gathered at the source indices. -/
def plainAgg (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (hc : (⟨1, ![E]⟩ : Shape).BroadcastsInDim ⟨2, ![E, 1]⟩ ![0])
    (hbz : (⟨0, ![]⟩ : Shape).BroadcastsInDim ⟨1, ![E]⟩ ![]) (NN : BitVec 32)
    (feat : FVec Ideal ⟨2, ![N, D]⟩ .f32) (row col : IVec ⟨1, ![E]⟩ 32) : FVec Ideal ⟨2, ![N, D]⟩ .f32 :=
  Host.scatterAdd (F := Ideal) (rowScatter N E D wfs)
    (broadcastInDim ⟨2, ![N, D]⟩ ![] hb0 (constant ⟨0, ![]⟩ .f32 0x00000000#32)) (col1 hc col)
    (Host.gather (rowGather N E D wfg) feat (col1 hc (nrmIdx hbz NN row)))

/-- The normalized aggregation: the gathered rows times the per-edge factor (spread over the columns) before the scatter-add. -/
def normAgg (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (hc : (⟨1, ![E]⟩ : Shape).BroadcastsInDim ⟨2, ![E, 1]⟩ ![0])
    (hbz : (⟨0, ![]⟩ : Shape).BroadcastsInDim ⟨1, ![E]⟩ ![]) (NN : BitVec 32)
    (h1 : (⟨1, ![E]⟩ : Shape).BroadcastsInDim ⟨2, ![E, 1]⟩ ![0])
    (h2 : (⟨2, ![E, 1]⟩ : Shape).BroadcastsInDim ⟨2, ![E, D]⟩ ![0, 1])
    (feat : FVec Ideal ⟨2, ![N, D]⟩ .f32) (nrm : FVec Ideal ⟨1, ![E]⟩ .f32) (row col : IVec ⟨1, ![E]⟩ 32) : FVec Ideal ⟨2, ![N, D]⟩ .f32 :=
  Host.scatterAdd (F := Ideal) (rowScatter N E D wfs)
    (broadcastInDim ⟨2, ![N, D]⟩ ![] hb0 (constant ⟨0, ![]⟩ .f32 0x00000000#32)) (col1 hc col)
    (mulf (Host.gather (rowGather N E D wfg) feat (col1 hc (nrmIdx hbz NN row)))
      (broadcastInDim ⟨2, ![E, D]⟩ ![0, 1] h2 (broadcastInDim ⟨2, ![E, 1]⟩ ![0] h1 nrm)))

/-- The per-edge factor: the node factor at the source times the node factor at the (gathered) target. -/
def edgeNorm (wfv : GatherDims.WF ⟨1, ![N]⟩ ⟨2, ![E, 1]⟩ ⟨1, ![E]⟩ [] [0] [] [0] [] 1 ![1])
    (hc : (⟨1, ![E]⟩ : Shape).BroadcastsInDim ⟨2, ![E, 1]⟩ ![0])
    (hbz : (⟨0, ![]⟩ : Shape).BroadcastsInDim ⟨1, ![E]⟩ ![]) (NN : BitVec 32)
    (dinv : FVec Ideal ⟨1, ![N]⟩ .f32) (row col : IVec ⟨1, ![E]⟩ 32) : FVec Ideal ⟨1, ![E]⟩ .f32 :=
  mulf (Host.gather (vecGather N E wfv) dinv (col1 hc (nrmIdx hbz NN row)))
    (Host.gather (vecGather N E wfv) dinv (col1 hc (nrmIdx hbz NN col)))

/-- The degree count: zeros scatter-added with a one per edge along the target indices (a rank-1 scatter). -/
def degree {dS : ScatterDims ⟨1, ![N]⟩ ⟨2, ![E, 1]⟩ ⟨1, ![E]⟩}
    (hb0 : (⟨0, ![]⟩ : Shape).BroadcastsInDim ⟨1, ![N]⟩ ![]) (hb1 : (⟨0, ![]⟩ : Shape).BroadcastsInDim ⟨1, ![E]⟩ ![])
    (hc : (⟨1, ![E]⟩ : Shape).BroadcastsInDim ⟨2, ![E, 1]⟩ ![0]) (col : IVec ⟨1, ![E]⟩ 32) : FVec Ideal ⟨1, ![N]⟩ .f32 :=
  Host.scatterAdd (F := Ideal) dS (broadcastInDim ⟨1, ![N]⟩ ![] hb0 (constant ⟨0, ![]⟩ .f32 0x00000000#32)) (col1 hc col)
    (broadcastInDim ⟨1, ![E]⟩ ![] hb1 (constant ⟨0, ![]⟩ .f32 0x3F800000#32))

/-- The node factor: 1/sqrt(degree) where the degree is positive, 0 elsewhere. -/
def nodeFactor (hb0 : (⟨0, ![]⟩ : Shape).BroadcastsInDim ⟨1, ![N]⟩ ![]) (deg : FVec Ideal ⟨1, ![N]⟩ .f32) : FVec Ideal ⟨1, ![N]⟩ .f32 :=
  select (cmpf (F := Ideal) .ogt deg (broadcastInDim ⟨1, ![N]⟩ ![] hb0 (constant ⟨0, ![]⟩ .f32 0x00000000#32)))
    (Host.rsqrt deg) (broadcastInDim ⟨1, ![N]⟩ ![] hb0 (id (constant (F := Ideal) ⟨0, ![]⟩ .f32 0x00000000#32)))

/-! ## The operations read at an entry -/

theorem col1_apply (hc : (⟨1, ![E]⟩ : Shape).BroadcastsInDim ⟨2, ![E, 1]⟩ ![0]) (v : IVec ⟨1, ![E]⟩ 32) (e : Fin E) :
    col1 hc v (ix2 e (0 : Fin 1)) = v (ix1 e) := by
  -- the column at (e, 0) reads the vector at e: axis 0 keeps the row (row 0 when E = 1, the only row)
  unfold col1
  refine broadcastInDim_apply ![0] hc v (ix2 e (0 : Fin 1)) (ix1 e) (fun a => ?_)
  match a with
  | ⟨0, _⟩ =>
    show e.val = if E = 1 then 0 else e.val
    split_ifs with hE
    · have := e.isLt; omega
    · rfl

theorem plainAgg_apply (hN : 0 < N) wfs wfg hb0 hc hbz NN (feat : FVec Ideal ⟨2, ![N, D]⟩ .f32) (row col : IVec ⟨1, ![E]⟩ 32) (n : Fin N) (q : Fin D) :
    plainAgg wfs wfg hb0 hc hbz NN feat row col (ix2 n q) = 0 + ∑ e ∈ lands col n, feat (ix2 (src hN hbz NN row e) q) := by
  unfold plainAgg Host.scatterAdd
  rw [Ideal.hostScatterAdd_def, scatter_rows_apply]
  -- the rows landing on n are the edges whose target word, read signed, is n
  have hl : (Finset.univ.filter fun e : Fin E => (col1 hc col (ix2 e 0)).toInt = (n.val : ℤ)) = lands col n := by
    unfold lands
    refine Finset.filter_congr (fun e _ => ?_)
    rw [col1_apply]
  rw [hl]
  congr 1
  · -- the operand is the zero array
    rw [broadcastInDim_scalar_apply, constant_apply, Ideal.ofBits_zero_f32]
  · -- each update entry is the gathered entry: the operand at the source row of edge e
    refine Finset.sum_congr rfl (fun e _ => ?_)
    rw [gather_rows_apply hN, col1_apply]
    rfl

theorem normAgg_apply (hN : 0 < N) wfs wfg hb0 hc hbz NN h1 h2 (feat : FVec Ideal ⟨2, ![N, D]⟩ .f32) (nrm : FVec Ideal ⟨1, ![E]⟩ .f32) (row col : IVec ⟨1, ![E]⟩ 32) (n : Fin N) (q : Fin D) :
    normAgg wfs wfg hb0 hc hbz NN h1 h2 feat nrm row col (ix2 n q) = 0 + ∑ e ∈ lands col n, feat (ix2 (src hN hbz NN row e) q) * nrm (ix1 e) := by
  unfold normAgg Host.scatterAdd
  rw [Ideal.hostScatterAdd_def, scatter_rows_apply]
  -- the rows landing on n are the edges whose target word, read signed, is n
  have hl : (Finset.univ.filter fun e : Fin E => (col1 hc col (ix2 e 0)).toInt = (n.val : ℤ)) = lands col n := by
    unfold lands
    refine Finset.filter_congr (fun e _ => ?_)
    rw [col1_apply]
  rw [hl]
  congr 1
  · -- the operand is the zero array
    rw [broadcastInDim_scalar_apply, constant_apply, Ideal.ofBits_zero_f32]
  · -- each update entry is the gathered entry times the edge's factor, the same in every column
    refine Finset.sum_congr rfl (fun e _ => ?_)
    rw [mulf_apply, gather_rows_apply hN, col1_apply, bcast_col_apply]
    rfl

theorem edgeNorm_apply (hN : 0 < N) wfv hc hbz NN (dinv : FVec Ideal ⟨1, ![N]⟩ .f32) (row col : IVec ⟨1, ![E]⟩ 32) (e : Fin E) :
    edgeNorm wfv hc hbz NN dinv row col (ix1 e) = dinv (ix1 (src hN hbz NN row e)) * dinv (ix1 (src hN hbz NN col e)) := by
  -- one gather read at e: the clamped signed reading of the column entry is that of the normalised index word
  have h : ∀ v : IVec ⟨1, ![E]⟩ 32,
      Host.gather (vecGather N E wfv) dinv (col1 hc (nrmIdx hbz NN v)) (ix1 e) = dinv (ix1 (src hN hbz NN v e)) := by
    intro v
    rw [gather_vec_apply hN]
    refine congrArg (fun k : Fin N => dinv (ix1 k)) (Fin.ext ?_)
    show min (col1 hc (nrmIdx hbz NN v) (ix2 e (0 : Fin 1))).toInt.toNat (N - 1)
      = min (nrmIdx hbz NN v (ix1 e)).toInt.toNat (N - 1)
    rw [col1_apply]
  unfold edgeNorm
  rw [mulf_apply, h row, h col]

/-- An edge that lands on n (its target word read signed IS n, so it is not negative) gathers the node factor at n itself. -/
theorem src_of_lands (hN : 0 < N) (hN31 : N < 2 ^ 31) hbz (col : IVec ⟨1, ![E]⟩ 32) (n : Fin N) (e : Fin E) (he : e ∈ lands col n) :
    src hN hbz (BitVec.ofNat 32 N) col e = n := by
  have hw : (col (ix1 e)).toInt = (n.val : ℤ) := (Finset.mem_filter.mp he).2
  unfold src nrmIdx
  rw [select_apply]
  -- the word reads as n ≥ 0, so it is not below 0 and the selection keeps it
  have hc : cmpi .slt col (broadcastInDim ⟨1, ![E]⟩ ![] hbz (constantI ⟨0, ![]⟩ 32 0#32)) (ix1 e) = 0#1 := by
    show IntOp.cmpi .slt (col (ix1 e)) (broadcastInDim ⟨1, ![E]⟩ ![] hbz (constantI ⟨0, ![]⟩ 32 0#32) (ix1 e)) = 0#1
    rw [broadcastInDim_scalar_apply, constantI_apply]
    unfold IntOp.cmpi
    have hs : (col (ix1 e)).slt 0#32 = false := by
      unfold BitVec.slt
      simp [hw]
    simp [hs]
  rw [hc, select_zero]
  -- clamping n < N into [0, N − 1] leaves n
  unfold srcRow
  refine Fin.ext ?_
  show min (col (ix1 e)).toInt.toNat (N - 1) = n.val
  rw [hw]
  have := n.isLt
  simp only [Int.toNat_natCast]
  omega

/-- The node factor is a real number at every node, whatever the indices. -/
theorem nodeFactor_real {dS : ScatterDims ⟨1, ![N]⟩ ⟨2, ![E, 1]⟩ ⟨1, ![E]⟩} hb0 hb1 hc (col : IVec ⟨1, ![E]⟩ 32) :
    AllReal (nodeFactor hb0 (degree (dS := dS) hb0 hb1 hc col)) := by
  intro i
  -- the degree is real at every node: zeros plus a finite sum of ones
  have hdeg : AllReal (degree (dS := dS) hb0 hb1 hc col) := by
    unfold degree
    refine allReal_scatterAdd dS _ _ _ (fun j => ?_) (fun j => ?_)
    · rw [broadcastInDim_scalar_apply]; exact real_zero
    · rw [broadcastInDim_scalar_apply]; exact real_one
  obtain ⟨r, hr⟩ := hdeg i
  unfold nodeFactor
  rw [select_apply]
  unfold Scalar.select
  split
  · -- the comparison holds: the degree r is a positive real, and its reciprocal square root is the real (√r)⁻¹
    rename_i hcmp
    show ∃ r' : ℝ, FloatOps.hostUnary .rsqrt (degree (dS := dS) hb0 hb1 hc col i) = (r' : EReal)
    rw [Ideal.hostUnary_rsqrt_def, hr, Ideal.rsqrt_coe]
    have hpos : 0 < r := by
      rw [cmpf_apply, Ideal.cmpf_def, broadcastInDim_scalar_apply, constant_apply, Ideal.ofBits_zero_f32, hr] at hcmp
      unfold Ideal.cmp at hcmp
      by_contra hneg
      have hn : ¬ ((0 : EReal) < (r : EReal)) := by
        rw [← EReal.coe_zero, EReal.coe_lt_coe_iff]; exact hneg
      simp [hn] at hcmp
    rw [if_neg (by linarith), if_neg (by linarith)]
    exact ⟨_, rfl⟩
  · -- otherwise the entry is the literal 0
    show ∃ r' : ℝ, broadcastInDim ⟨1, ![N]⟩ ![] hb0 (id (constant (F := Ideal) ⟨0, ![]⟩ .f32 0x00000000#32)) i = (r' : EReal)
    rw [broadcastInDim_scalar_apply]; exact real_zero

end Cert.GraphOps

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibLayerSteps.lean ====
/-
  The dense steps of one layer of the network, each read at one entry of its result, over the extended reals.

  A layer keeps a per-node factor as an R×1 column c. Two steps occur, for an R-row matrix:

    dotScale      h W c (p,q) = (Σₖ h(p,k)·W(k,q)) · c(p,0)           project, then scale the rows
    scaleBiasRelu a c b (p,q) = max (a(p,q)·c(p,0) + b(0,q)) 0         scale the rows, add the bias row, clip at zero

  and the fused step is their composition, dotScale (scaleBiasRelu a c b) W c. The vector unit reaches each of them on
  a block of rows by shape casts that change nothing, a column or a row spread over the block, a change of float
  format that is the identity on the extended reals, and a matrix product into a zero accumulator. Entry (p,q)
  depends only on row p of the row-indexed operands, so a block of rows of the whole-matrix result is the same
  function of the corresponding blocks of rows.
-/
import Idealize.ShloMosaic.PureOps.Ideal.Laws
import Idealize.ShloMosaic.Lib.ValueIdx
import Idealize.ShloMosaic.Lib.Pipeline.Value
import Idealize.ShloMosaic.Lib.KernelVsHost
import proofs.«165064_j6184752906610_2_alg».proof.Proof.LibPlainDot
import proofs.«165064_j6184752906610_2_alg».proof.Proof.LibColumn

noncomputable section

namespace Cert.LayerSteps

open Idealize.ShloMosaic Idealize.ShloMosaic.ValueIdx
open scoped BigOperators

variable {R K N : ℕ}

/-- The float zero the clip is taken against, kept as its word. -/
abbrev zeroW : EReal := Ideal.ofBits .f32 0x00000000#32

/-- Project, then scale the rows. -/
def dotScale (h : FVec Ideal ⟨2, ![R, K]⟩ .f32) (W : FVec Ideal ⟨2, ![K, N]⟩ .f32) (c : FVec Ideal ⟨2, ![R, 1]⟩ .f32) :
    FVec Ideal ⟨2, ![R, N]⟩ .f32 :=
  fun i => (∑ k : Fin K, h (ix2 (i 0) k) * W (ix2 k (i 1))) * c (ix2 (i 0) (0 : Fin 1))

/-- Scale the rows, add the bias row, clip at zero. -/
def scaleBiasRelu (a : FVec Ideal ⟨2, ![R, N]⟩ .f32) (c : FVec Ideal ⟨2, ![R, 1]⟩ .f32) (b : FVec Ideal ⟨2, ![1, N]⟩ .f32) :
    FVec Ideal ⟨2, ![R, N]⟩ .f32 :=
  fun i => max (a (ix2 (i 0) (i 1)) * c (ix2 (i 0) (0 : Fin 1)) + b (ix2 (0 : Fin 1) (i 1))) zeroW

theorem dotScale_apply (h : FVec Ideal ⟨2, ![R, K]⟩ .f32) (W : FVec Ideal ⟨2, ![K, N]⟩ .f32) (c : FVec Ideal ⟨2, ![R, 1]⟩ .f32)
    (p : Fin R) (q : Fin N) :
    dotScale h W c (ix2 p q) = (∑ k : Fin K, h (ix2 p k) * W (ix2 k q)) * c (ix2 p (0 : Fin 1)) := rfl

theorem scaleBiasRelu_apply (a : FVec Ideal ⟨2, ![R, N]⟩ .f32) (c : FVec Ideal ⟨2, ![R, 1]⟩ .f32) (b : FVec Ideal ⟨2, ![1, N]⟩ .f32)
    (p : Fin R) (q : Fin N) :
    scaleBiasRelu a c b (ix2 p q) = max (a (ix2 p q) * c (ix2 p (0 : Fin 1)) + b (ix2 (0 : Fin 1) q)) zeroW := rfl

/-! ## A 1×N row spread over R rows by the vector unit -/

/-- A `[1, n]` row broadcast to `[r, n]` reads, at `(p, q)`, the row's entry `(0, q)`. -/
theorem broadcastTo_1n_rn_apply {α : Type} {r n : ℕ} (v : (⟨2, ![1, n]⟩ : Shape).Idx → α)
    (h : (⟨2, ![1, n]⟩ : Shape).Broadcasts ⟨2, ![r, n]⟩) (p : Fin r) (q : Fin n) :
    broadcastTo ⟨2, ![r, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-! ## The vector unit's forms -/

/-- The body that projects a block (both operands narrowed to the short float format on the way into the product)
    and then scales its rows. -/
theorem body_dotScale (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![K, N]⟩ .f32) (x2 : FVec Ideal ⟨2, ![R, 1]⟩ .f32)
    (h2 : (⟨2, ![R, 1]⟩ : Shape).ShapeCasts ⟨2, ![R, 1]⟩)
    (hb2 : (⟨2, ![R, 1]⟩ : Shape).Broadcasts ⟨2, ![R, N]⟩) (hlt : FTy.bf16.bits < FTy.f32.bits) :
    mulf (matmul d none (truncf .bf16 x0 hlt) (truncf .bf16 x1 hlt) (constant ⟨2, ![R, N]⟩ .f32 0x00000000#32))
      (broadcastTo ⟨2, ![R, N]⟩ (shapeCast ⟨2, ![R, 1]⟩ x2 h2) hb2)
    = dotScale x0 x1 x2 := by
  funext i
  obtain ⟨p, q, rfl⟩ : ∃ (p : Fin R) (q : Fin N), i = ix2 p q := ⟨i 0, i 1, eq_ix2 i⟩
  rw [dotScale_apply, mulf_apply, shapeCast_self, Cert.LibColumn.broadcastTo_a1_ab_apply]
  exact congrArg (· * x2 (ix2 p (0 : Fin 1)))
    (Cert.LibPlainDot.matmul_zero_apply d hd none (truncf .bf16 x0 hlt) (truncf .bf16 x1 hlt) p q)

/-- The body that scales a block's rows, adds the bias row (cast to its own shape twice) and clips at zero. -/
theorem body_scaleBiasRelu (x0 : FVec Ideal ⟨2, ![R, N]⟩ .f32) (x1 : FVec Ideal ⟨2, ![R, 1]⟩ .f32) (x2 : FVec Ideal ⟨2, ![1, N]⟩ .f32)
    (h0 : (⟨2, ![R, N]⟩ : Shape).ShapeCasts ⟨2, ![R, N]⟩) (h1 : (⟨2, ![R, 1]⟩ : Shape).ShapeCasts ⟨2, ![R, 1]⟩)
    (h2 h2' : (⟨2, ![1, N]⟩ : Shape).ShapeCasts ⟨2, ![1, N]⟩)
    (hb1 : (⟨2, ![R, 1]⟩ : Shape).Broadcasts ⟨2, ![R, N]⟩) (hb2 : (⟨2, ![1, N]⟩ : Shape).Broadcasts ⟨2, ![R, N]⟩) :
    maximumf (addf (mulf (shapeCast ⟨2, ![R, N]⟩ x0 h0) (broadcastTo ⟨2, ![R, N]⟩ (shapeCast ⟨2, ![R, 1]⟩ x1 h1) hb1))
        (broadcastTo ⟨2, ![R, N]⟩ (shapeCast ⟨2, ![1, N]⟩ (shapeCast ⟨2, ![1, N]⟩ x2 h2) h2') hb2))
      (broadcast ⟨2, ![R, N]⟩ (Scalar.ofBits .f32 0x00000000#32 : Ideal .f32))
    = scaleBiasRelu x0 x1 x2 := by
  funext i
  obtain ⟨p, q, rfl⟩ : ∃ (p : Fin R) (q : Fin N), i = ix2 p q := ⟨i 0, i 1, eq_ix2 i⟩
  rw [scaleBiasRelu_apply, maximumf_apply, addf_apply, mulf_apply, shapeCast_self, shapeCast_self, shapeCast_self, shapeCast_self,
    Cert.LibColumn.broadcastTo_a1_ab_apply, broadcastTo_1n_rn_apply, broadcast_apply]
  rfl

/-- The fused body: scale, bias and clip a block, then project it and scale its rows again. -/
theorem body_fused (d : DotDims ⟨2, ![R, K]⟩ ⟨2, ![K, N]⟩ ⟨2, ![R, N]⟩) (hd : d = DotDims.plain R K N)
    (b : FVec Ideal ⟨2, ![1, K]⟩ .f32) (a : FVec Ideal ⟨2, ![R, K]⟩ .f32) (c : FVec Ideal ⟨2, ![R, 1]⟩ .f32)
    (W : FVec Ideal ⟨2, ![K, N]⟩ .f32) (c' : FVec Ideal ⟨2, ![R, 1]⟩ .f32)
    (h0 : (⟨2, ![R, K]⟩ : Shape).ShapeCasts ⟨2, ![R, K]⟩) (h1 h1' : (⟨2, ![R, 1]⟩ : Shape).ShapeCasts ⟨2, ![R, 1]⟩)
    (h2 h2' : (⟨2, ![1, K]⟩ : Shape).ShapeCasts ⟨2, ![1, K]⟩)
    (hb1 : (⟨2, ![R, 1]⟩ : Shape).Broadcasts ⟨2, ![R, K]⟩) (hb2 : (⟨2, ![1, K]⟩ : Shape).Broadcasts ⟨2, ![R, K]⟩)
    (hb3 : (⟨2, ![R, 1]⟩ : Shape).Broadcasts ⟨2, ![R, N]⟩) (hlt : FTy.bf16.bits < FTy.f32.bits) :
    mulf (matmul d none
        (truncf .bf16 (maximumf (addf (mulf (shapeCast ⟨2, ![R, K]⟩ a h0) (broadcastTo ⟨2, ![R, K]⟩ (shapeCast ⟨2, ![R, 1]⟩ c h1) hb1))
            (broadcastTo ⟨2, ![R, K]⟩ (shapeCast ⟨2, ![1, K]⟩ (shapeCast ⟨2, ![1, K]⟩ b h2) h2') hb2))
          (broadcast ⟨2, ![R, K]⟩ (Scalar.ofBits .f32 0x00000000#32 : Ideal .f32))) hlt)
        (truncf .bf16 W hlt) (constant ⟨2, ![R, N]⟩ .f32 0x00000000#32))
      (broadcastTo ⟨2, ![R, N]⟩ (shapeCast ⟨2, ![R, 1]⟩ c' h1') hb3)
    = dotScale (scaleBiasRelu a c b) W c' := by
  rw [body_scaleBiasRelu a c b h0 h1 h2 h2' hb1 hb2]
  exact body_dotScale d hd (scaleBiasRelu a c b) W c' h1' hb3 hlt

/-! ## A block of rows -/

/-- Entry (p, q) of the projection step reads only row p of the features and of the column: a block of rows of the
    result is the step of the blocks of rows. -/
theorem dotScale_rows {R' : ℕ} (ρ : Fin R' → Fin R)
    (h : FVec Ideal ⟨2, ![R, K]⟩ .f32) (W : FVec Ideal ⟨2, ![K, N]⟩ .f32) (c : FVec Ideal ⟨2, ![R, 1]⟩ .f32)
    (h' : FVec Ideal ⟨2, ![R', K]⟩ .f32) (W' : FVec Ideal ⟨2, ![K, N]⟩ .f32) (c' : FVec Ideal ⟨2, ![R', 1]⟩ .f32)
    (hh : ∀ p k, h' (ix2 p k) = h (ix2 (ρ p) k)) (hW : W' = W) (hc : ∀ p, c' (ix2 p (0 : Fin 1)) = c (ix2 (ρ p) (0 : Fin 1)))
    (p : Fin R') (q : Fin N) :
    dotScale h' W' c' (ix2 p q) = dotScale h W c (ix2 (ρ p) q) := by
  subst hW
  rw [dotScale_apply, dotScale_apply, hc]
  refine congrArg (fun s => s * c (ix2 (ρ p) (0 : Fin 1))) (Finset.sum_congr rfl fun k _ => ?_)
  rw [hh]

theorem scaleBiasRelu_rows {R' : ℕ} (ρ : Fin R' → Fin R)
    (a : FVec Ideal ⟨2, ![R, N]⟩ .f32) (c : FVec Ideal ⟨2, ![R, 1]⟩ .f32) (b : FVec Ideal ⟨2, ![1, N]⟩ .f32)
    (a' : FVec Ideal ⟨2, ![R', N]⟩ .f32) (c' : FVec Ideal ⟨2, ![R', 1]⟩ .f32) (b' : FVec Ideal ⟨2, ![1, N]⟩ .f32)
    (ha : ∀ p q, a' (ix2 p q) = a (ix2 (ρ p) q)) (hc : ∀ p, c' (ix2 p (0 : Fin 1)) = c (ix2 (ρ p) (0 : Fin 1)))
    (hb : b' = b) (p : Fin R') (q : Fin N) :
    scaleBiasRelu a' c' b' (ix2 p q) = scaleBiasRelu a c b (ix2 (ρ p) q) := by
  subst hb
  rw [scaleBiasRelu_apply, scaleBiasRelu_apply, hc, ha]

/-- The fused step on a block of rows is the block of rows of the fused step. -/
theorem fused_rows {R' : ℕ} (ρ : Fin R' → Fin R)
    (a : FVec Ideal ⟨2, ![R, K]⟩ .f32) (c : FVec Ideal ⟨2, ![R, 1]⟩ .f32) (b : FVec Ideal ⟨2, ![1, K]⟩ .f32) (W : FVec Ideal ⟨2, ![K, N]⟩ .f32)
    (a' : FVec Ideal ⟨2, ![R', K]⟩ .f32) (c' : FVec Ideal ⟨2, ![R', 1]⟩ .f32) (b' : FVec Ideal ⟨2, ![1, K]⟩ .f32) (W' : FVec Ideal ⟨2, ![K, N]⟩ .f32)
    (ha : ∀ p k, a' (ix2 p k) = a (ix2 (ρ p) k)) (hc : ∀ p, c' (ix2 p (0 : Fin 1)) = c (ix2 (ρ p) (0 : Fin 1)))
    (hb : b' = b) (hW : W' = W) (p : Fin R') (q : Fin N) :
    dotScale (scaleBiasRelu a' c' b') W' c' (ix2 p q) = dotScale (scaleBiasRelu a c b) W c (ix2 (ρ p) q) :=
  dotScale_rows ρ _ W c _ W' c' (fun p k => scaleBiasRelu_rows ρ a c b a' c' b' ha hc hb p k) hW hc p q

end Cert.LayerSteps

end
-- ==== Proof.KernelFolds.lean ====
/-
  The host stretches between the regions, each as a function of the buffer contents it starts from.

  Between two regions the host gathers the rows of the previous region's output at the source indices and
  scatter-adds them into zeros along the target indices (one graph aggregation), and reshapes the next layer's bias to a
  row; after the last region it pools the node features per graph. A stretch rewrites only the buffers its operations
  write: every other buffer keeps its contents through it.
-/
import proofs.«165064_j6184752906610_2_alg».proof.Proof.Gen.KernelIdeal.Frame
import proofs.«165064_j6184752906610_2_alg».proof.Proof.LibGraphOps
import proofs.«165064_j6184752906610_2_alg».proof.Proof.LibLayerSteps
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Folds

open Cert.KernelIdeal Cert.KernelIdeal.Gen Cert.GraphOps Cert.LayerSteps

variable (W : Valuation τ sig (Elt Ideal))

/-- The buffers the stretch's operations write. -/
abbrev hostOps1_W : List (Ref sig .tc) := [main_c, main_v17, main_v18, main_c_3, main_v19, main_v20, main_v21, main_v22, main_v23, main_cst_4, main_v24, main_v25, main_v26, main_v27]

theorem hostOps1_writes : (hostOps1 : List (HloOp τ sig (Elt Ideal))).Forall fun op => op.writes ⊆ (hostOps1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep1 (r : Ref sig .tc) (h : r ∉ hostOps1_W) : StableHlo.after hostOps1 W (Proc.devRef .tc r) = W (Proc.devRef .tc r) :=
  after_of_writes_sub hostOps1 _ hostOps1_writes h

/-- The stretch's aggregation: zeros scatter-added, along the target indices, with the rows of the previous region's
    output gathered at the source indices. -/
theorem fold1_v26 : StableHlo.after hostOps1 W (Proc.devRef .tc main_v26)
    = plainAgg (N := 100000) (E := 3300000) (D := 16) scatter_S100000x16_S3300000x1_S3300000x16_1_0_0_1.wf
        gather_S100000x16_S3300000x1_S3300000x16_1_0_n_n_0_1_116.wf bcast_S_S100000x16 bcast_S3300000_S3300000x1_0 bcast_S_S3300000 100000#32
        (W (Proc.devRef .tc main_v16)) (W (Proc.devRef .tc main_v3)) (W (Proc.devRef .tc main_v6)) := by
  dsimp only [hostOps1]
  after_results
  rfl

/-- The layer's bias vector as a 1×16 row. -/
theorem fold1_v27 : StableHlo.after hostOps1 W (Proc.devRef .tc main_v27)
    = shapeCast S1x16 (W (Proc.devRef .tc main_arg4)) shapeCasts_S16_S1x16 := by
  dsimp only [hostOps1]
  after_results
  rfl

/-- The buffers the stretch's operations write. -/
abbrev hostOps2_W : List (Ref sig .tc) := [main_c_5, main_v29, main_v30, main_c_6, main_v31, main_v32, main_v33, main_v34, main_v35, main_cst_7, main_v36, main_v37, main_v38, main_v39]

theorem hostOps2_writes : (hostOps2 : List (HloOp τ sig (Elt Ideal))).Forall fun op => op.writes ⊆ (hostOps2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep2 (r : Ref sig .tc) (h : r ∉ hostOps2_W) : StableHlo.after hostOps2 W (Proc.devRef .tc r) = W (Proc.devRef .tc r) :=
  after_of_writes_sub hostOps2 _ hostOps2_writes h

/-- The stretch's aggregation: zeros scatter-added, along the target indices, with the rows of the previous region's
    output gathered at the source indices. -/
theorem fold2_v38 : StableHlo.after hostOps2 W (Proc.devRef .tc main_v38)
    = plainAgg (N := 100000) (E := 3300000) (D := 32) scatter_S100000x32_S3300000x1_S3300000x32_1_0_0_1.wf
        gather_S100000x32_S3300000x1_S3300000x32_1_0_n_n_0_1_132.wf bcast_S_S100000x32 bcast_S3300000_S3300000x1_0 bcast_S_S3300000 100000#32
        (W (Proc.devRef .tc main_v28)) (W (Proc.devRef .tc main_v3)) (W (Proc.devRef .tc main_v6)) := by
  dsimp only [hostOps2]
  after_results
  rfl

/-- The layer's bias vector as a 1×32 row. -/
theorem fold2_v39 : StableHlo.after hostOps2 W (Proc.devRef .tc main_v39)
    = shapeCast S1x32 (W (Proc.devRef .tc main_arg6)) shapeCasts_S32_S1x32 := by
  dsimp only [hostOps2]
  after_results
  rfl

/-- The buffers the stretch's operations write. -/
abbrev hostOps3_W : List (Ref sig .tc) := [main_c_8, main_v41, main_v42, main_c_9, main_v43, main_v44, main_v45, main_v46, main_v47, main_cst_10, main_v48, main_v49, main_v50, main_v51]

theorem hostOps3_writes : (hostOps3 : List (HloOp τ sig (Elt Ideal))).Forall fun op => op.writes ⊆ (hostOps3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep3 (r : Ref sig .tc) (h : r ∉ hostOps3_W) : StableHlo.after hostOps3 W (Proc.devRef .tc r) = W (Proc.devRef .tc r) :=
  after_of_writes_sub hostOps3 _ hostOps3_writes h

set_option maxHeartbeats 4000000 in
/-- The stretch's aggregation: zeros scatter-added, along the target indices, with the rows of the previous region's
    output gathered at the source indices. -/
theorem fold3_v50 : StableHlo.after hostOps3 W (Proc.devRef .tc main_v50)
    = plainAgg (N := 100000) (E := 3300000) (D := 64) scatter_S100000x64_S3300000x1_S3300000x64_1_0_0_1.wf
        gather_S100000x64_S3300000x1_S3300000x64_1_0_n_n_0_1_164.wf bcast_S_S100000x64 bcast_S3300000_S3300000x1_0 bcast_S_S3300000 100000#32
        (W (Proc.devRef .tc main_v40)) (W (Proc.devRef .tc main_v3)) (W (Proc.devRef .tc main_v6)) := by
  dsimp only [hostOps3]
  after_results
  rfl

/-- The layer's bias vector as a 1×64 row. -/
theorem fold3_v51 : StableHlo.after hostOps3 W (Proc.devRef .tc main_v51)
    = shapeCast S1x64 (W (Proc.devRef .tc main_arg8)) shapeCasts_S64_S1x64 := by
  dsimp only [hostOps3]
  after_results
  rfl

/-- The pooling tail: the node features summed per graph, divided by the graph's node count (at least one), projected
    to one number per graph, the bias added, the 1000×1 column flattened. -/
def tailK (h : FVec Ideal S100000x64 .f32) (batch : IVec S100000 32) (Wl : FVec Ideal S64x1 .f32) (bl : FVec Ideal S1 .f32) : FVec Ideal S1000 .f32 :=
  shapeCast S1000 (addf (Host.dotGeneral dot_S1000x64_S64x1_S1000x1_1_0_0_1_n_n none (Host.divf (Host.scatterAdd scatter_S1000x64_S100000x1_S100000x64_1_0_0_1 (broadcastInDim S1000x64 ![] bcast_S_S1000x64 (constant (F := Ideal) S_ .f32 0x00000000#32)) (broadcastInDim S100000x1 ![0] bcast_S100000_S100000x1_0 batch) h) (broadcastInDim S1000x64 ![0, 1] bcast_S1000x1_S1000x64_0_1 (broadcastInDim S1000x1 ![0] bcast_S1000_S1000x1_0 (maximumf (Host.scatterAdd scatter_S1000_S100000x1_S100000_n_0_0_1 (broadcastInDim S1000 ![] bcast_S_S1000 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S1000 ![] bcast_S_S1000 (constant (F := Ideal) S_ .f32 0x3F800000#32)))))) Wl) (broadcastInDim S1000x1 ![0, 1] bcast_S1x1_S1000x1_0_1 (broadcastInDim S1x1 ![1] bcast_S1_S1x1_1 bl))) shapeCasts_S1000x1_S1000

set_option maxHeartbeats 4000000 in
/-- The last stretch computes the pooling tail of the last region's output. -/
theorem fold4_v69 : StableHlo.after hostOps4 W (Proc.devRef .tc main_v69)
    = tailK (W (Proc.devRef .tc main_v52)) (W (Proc.devRef .tc main_arg2)) (W (Proc.devRef .tc main_arg9)) (W (Proc.devRef .tc main_arg10)) := by
  dsimp only [hostOps4]
  after_results
  rfl

end Cert.KernelIdeal.Folds

end
-- ==== Proof.Blocks0.lean ====
/-
  Region 0 (the first layer's projection, rows scaled by the node factor) as one function of the whole arrays.

  The region's output array is written back block by block: grid point t computes, from rows 5000·t … 5000·t + 4999 of
  the row-indexed operands and the whole of the small operands, the same rows of the result. The step at entry (p, q)
  reads only row p of the row-indexed operands, so what point t writes back is block t of the step applied to the
  whole arrays; the 20 blocks tile the 100000 rows, so after the region the array holds the step of the whole arrays.
-/
import proofs.«165064_j6184752906610_2_alg».proof.Proof.Gen.KernelIdeal.Frame
import proofs.«165064_j6184752906610_2_alg».proof.Proof.LibLayerSteps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks0

open Cert.KernelIdeal Cert.KernelIdeal.Gen Cert.LayerSteps

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer's projection -/

/-- The body's arithmetic on a block is the projection of the block followed by the scaling of its rows. -/
theorem pay0_eq (x0 : Vec Ideal S5000x128 .f32) (x1 : Vec Ideal S128x16 .f32) (x2 : Vec Ideal S5000x1 .f32) :
    k0_pay1 x0 x1 x2 = dotScale (R := 5000) (K := 128) (N := 16) x0 x1 x2 :=
  body_dotScale _ rfl x0 x1 x2 _ _ _

/-- The printed index maps, decided over the 20 grid points: the row-blocked windows are at block (t, 0), the weight
    window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 20 :=
  (by decide +kernel : ∀ t : Fin grid0.N, _)

/-- What point t writes back is block t (rows 5000·t … 5000·t + 4999) of the projection of the whole arrays. -/
theorem flushed0_eq (c : Dev nD) (t : Fin cfg0.N) :
    (dat0 V c).flushed 3 t = ((cfg0.win 3).blk t).view.read (Elt Ideal)
      (dotScale (R := 100000) (K := 128) (N := 16) (V c main_arg0) (V c main_arg3) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x16) hz, View.ld_unit_zero (S := S5000x1) hz]
  rw [pay0_eq]
  obtain ⟨e0, e1, e2, e3, e4, e5, e6, e7, ht⟩ := idx0 t
  funext j
  obtain ⟨p, q, rfl⟩ : ∃ (p : Fin 5000) (q : Fin 16), j = ix2 p q := ⟨j 0, j 1, eq_ix2 j⟩
  let ρ : Fin 5000 → Fin 100000 := fun p => ⟨t.val * 5000 + p.val, by have := p.isLt; omega⟩
  show dotScale (iblk0 V c 0 t) (iblk0 V c 1 t) (iblk0 V c 2 t) (ix2 p q)
      = dotScale (V c main_arg0) (V c main_arg3) (V c main_v15) (((cfg0.win 3).blk t).view.emb (ix2 p q))
  have hemb : ((cfg0.win 3).blk t).view.emb (ix2 p q) = ix2 (ρ p) q := by
    funext a; apply Fin.ext
    match a with
    | ⟨0, _⟩ => show win0_3.index t (0 : Fin 2) * 5000 + 1 * p.val = t.val * 5000 + p.val; rw [e6]; omega
    | ⟨1, _⟩ => show win0_3.index t (1 : Fin 2) * 16 + 1 * q.val = q.val; rw [e7]; omega
  rw [hemb]
  refine dotScale_rows ρ (V c main_arg0) (V c main_arg3) (V c main_v15) (iblk0 V c 0 t) (iblk0 V c 1 t) (iblk0 V c 2 t) ?_ ?_ ?_ p q
  · intro p k
    unfold iblk0
    rw [View.read_apply]
    show V c main_arg0 _ = V c main_arg0 _
    congr 1
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega
  · funext x
    unfold iblk0
    rw [View.read_apply]
    show V c main_arg3 _ = V c main_arg3 x
    congr 1
    funext a; apply Fin.ext
    match a with
    | ⟨0, _⟩ => show win0_1.index t (0 : Fin 2) * 128 + 1 * (x 0).val = (x 0).val; rw [e2]; omega
    | ⟨1, _⟩ => show win0_1.index t (1 : Fin 2) * 16 + 1 * (x 1).val = (x 1).val; rw [e3]; omega
  · intro p
    unfold iblk0
    rw [View.read_apply]
    show V c main_v15 _ = V c main_v15 _
    congr 1
    funext a; apply Fin.ext
    match a with
    | ⟨0, _⟩ => show win0_2.index t (0 : Fin 2) * 5000 + 1 * p.val = t.val * 5000 + p.val; rw [e4]; omega
    | ⟨1, _⟩ => show win0_2.index t (1 : Fin 2) * 1 + 1 * 0 = 0; rw [e5]

/-- An index of the output array is in point t's block iff each coordinate is in the block's range on its axis. -/
theorem mem_blk0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v16).slice (win0_3.rect t)).set ↔ _
  rw [View.set_slice_whole, Rect.mem_set_unit]
  exact Iff.rfl

/-- Row r of the output array is written back by point r / 5000: the 20 blocks tile the array. -/
theorem cover0 (i : S100000x16.Idx) : ∃ t : Fin cfg0.N, (cfg0.win 3).flush t = true ∧ i ∈ ((cfg0.win 3).blk t).view.set := by
  have h0 : (i 0).val < 100000 := (i 0).isLt
  have h1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7, -⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 16 ≤ (i 1).val ∧ (i 1).val < win0_3.index t (1 : Fin 2) * 16 + 16; rw [e7]; omega

/-- After the region its output array holds the projection of the whole arrays, rows scaled by the node factor. -/
theorem arr0 (c : Dev nD) :
    (dat0 V c).arrAt 3 cfg0.N = dotScale (R := 100000) (K := 128) (N := 16) (V c main_arg0) (V c main_arg3) (V c main_v15) :=
  (dat0 V c).arrAt_eq_of_cover 3 _ (fun t _ => flushed0_eq V c t) cover0

end Cert.KernelIdeal.Blocks0

end
-- ==== Proof.Blocks1.lean ====
/-
  Region 1 (the fused stage between layers 1 and 2) as one function of the whole arrays.

  The region's output array is written back block by block: grid point t computes, from rows 5000·t … 5000·t + 4999 of
  the row-indexed operands and the whole of the small operands, the same rows of the result. The step at entry (p, q)
  reads only row p of the row-indexed operands, so what point t writes back is block t of the step applied to the
  whole arrays; the 20 blocks tile the 100000 rows, so after the region the array holds the step of the whole arrays.
-/
import proofs.«165064_j6184752906610_2_alg».proof.Proof.Gen.KernelIdeal.Frame
import proofs.«165064_j6184752906610_2_alg».proof.Proof.LibLayerSteps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks1

open Cert.KernelIdeal Cert.KernelIdeal.Gen Cert.LayerSteps

variable (V : (c : Dev nD) → (b : Ref sig .tc) → Buf (Elt Ideal) ((c : Thread nD τ).loc b))

theorem hz : (![0, 0] : Fin 2 → Nat) = fun _ => 0 := funext fun a => by fin_cases a <;> rfl

/-! ## Region 1: a fused stage (scale, bias and clip the aggregate; project; scale again) -/

/-- The body's arithmetic on a block is the fused step of the block. -/
theorem pay1_eq (b : Vec Ideal S1x16 .f32) (a : Vec Ideal S5000x16 .f32) (c : Vec Ideal S5000x1 .f32) (W : Vec Ideal S16x32 .f32)
    (c' : Vec Ideal S5000x1 .f32) :
    k1_pay1 b a c W c' = dotScale (R := 5000) (K := 16) (N := 32) (scaleBiasRelu a c b) W c' :=
  body_fused _ rfl b a c W c' _ _ _ _ _ _ _ _ _

/-- The printed index maps, decided over the 20 grid points: the row-blocked windows are at block (t, 0), the bias and
    weight windows at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 20 :=
  (by decide +kernel : ∀ t : Fin grid1.N, _)

/-- What point t writes back is block t (rows 5000·t … 5000·t + 4999) of the fused step of the whole arrays. -/
theorem flushed1_eq (c : Dev nD) (t : Fin cfg1.N) :
    (dat1 V c).flushed 4 t = ((cfg1.win 4).blk t).view.read (Elt Ideal)
      (dotScale (R := 100000) (K := 16) (N := 32) (scaleBiasRelu (V c main_v26) (V c main_v15) (V c main_v27)) (V c main_arg5) (V c main_v15)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz,
    View.ld_unit_zero (S := S16x32) hz]
  rw [pay1_eq]
  obtain ⟨e0, e1, e2, e3, e4, e5, e6, e7, e8, e9, ht⟩ := idx1 t
  funext j
  obtain ⟨p, q, rfl⟩ : ∃ (p : Fin 5000) (q : Fin 32), j = ix2 p q := ⟨j 0, j 1, eq_ix2 j⟩
  let ρ : Fin 5000 → Fin 100000 := fun p => ⟨t.val * 5000 + p.val, by have := p.isLt; omega⟩
  show dotScale (scaleBiasRelu (iblk1 V c 0 t) (iblk1 V c 1 t) (iblk1 V c 2 t)) (iblk1 V c 3 t) (iblk1 V c 1 t) (ix2 p q)
      = dotScale (scaleBiasRelu (V c main_v26) (V c main_v15) (V c main_v27)) (V c main_arg5) (V c main_v15) (((cfg1.win 4).blk t).view.emb (ix2 p q))
  have hemb : ((cfg1.win 4).blk t).view.emb (ix2 p q) = ix2 (ρ p) q := by
    funext a; apply Fin.ext
    match a with
    | ⟨0, _⟩ => show win1_4.index t (0 : Fin 2) * 5000 + 1 * p.val = t.val * 5000 + p.val; rw [e8]; omega
    | ⟨1, _⟩ => show win1_4.index t (1 : Fin 2) * 32 + 1 * q.val = q.val; rw [e9]; omega
  rw [hemb]
  refine fused_rows ρ (V c main_v26) (V c main_v15) (V c main_v27) (V c main_arg5) (iblk1 V c 0 t) (iblk1 V c 1 t) (iblk1 V c 2 t) (iblk1 V c 3 t)
    ?_ ?_ ?_ ?_ p q
  · intro p k
    unfold iblk1
    rw [View.read_apply]
    show V c main_v26 _ = V c main_v26 _
    congr 1
    funext a; apply Fin.ext
    match a with
    | ⟨0, _⟩ => show win1_0.index t (0 : Fin 2) * 5000 + 1 * p.val = t.val * 5000 + p.val; rw [e0]; omega
    | ⟨1, _⟩ => show win1_0.index t (1 : Fin 2) * 16 + 1 * k.val = k.val; rw [e1]; omega
  · intro p
    unfold iblk1
    rw [View.read_apply]
    show V c main_v15 _ = V c main_v15 _
    congr 1
    funext a; apply Fin.ext
    match a with
    | ⟨0, _⟩ => show win1_1.index t (0 : Fin 2) * 5000 + 1 * p.val = t.val * 5000 + p.val; rw [e2]; omega
    | ⟨1, _⟩ => show win1_1.index t (1 : Fin 2) * 1 + 1 * 0 = 0; rw [e3]
  · funext x
    unfold iblk1
    rw [View.read_apply]
    show V c main_v27 _ = V c main_v27 x
    congr 1
    funext a; apply Fin.ext
    match a with
    | ⟨0, _⟩ => show win1_2.index t (0 : Fin 2) * 1 + 1 * (x 0).val = (x 0).val; rw [e4]; omega
    | ⟨1, _⟩ => show win1_2.index t (1 : Fin 2) * 16 + 1 * (x 1).val = (x 1).val; rw [e5]; omega
  · funext x
    unfold iblk1
    rw [View.read_apply]
    show V c main_arg5 _ = V c main_arg5 x
    congr 1
    funext a; apply Fin.ext
    match a with
    | ⟨0, _⟩ => show win1_3.index t (0 : Fin 2) * 16 + 1 * (x 0).val = (x 0).val; rw [e6]; omega
    | ⟨1, _⟩ => show win1_3.index t (1 : Fin 2) * 32 + 1 * (x 1).val = (x 1).val; rw [e7]; omega

/-- An index of the output array is in point t's block iff each coordinate is in the block's range on its axis. -/
theorem mem_blk1 (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v28).slice (win1_4.rect t)).set ↔ _
  rw [View.set_slice_whole, Rect.mem_set_unit]
  exact Iff.rfl

/-- Row r of the output array is written back by point r / 5000: the 20 blocks tile the array. -/
theorem cover1 (i : S100000x32.Idx) : ∃ t : Fin cfg1.N, (cfg1.win 4).flush t = true ∧ i ∈ ((cfg1.win 4).blk t).view.set := by
  have h0 : (i 0).val < 100000 := (i 0).isLt
  have h1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e8, e9, -⟩ := idx1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e8, ht]; omega
  | ⟨1, _⟩ => show win1_4.index t (1 : Fin 2) * 32 ≤ (i 1).val ∧ (i 1).val < win1_4.index t (1 : Fin 2) * 32 + 32; rw [e9]; omega

/-- After the region its output array holds the fused step of the whole arrays. -/
theorem arr1 (c : Dev nD) :
    (dat1 V c).arrAt 4 cfg1.N
      = dotScale (R := 100000) (K := 16) (N := 32) (scaleBiasRelu (V c main_v26) (V c main_v15) (V c main_v27)) (V c main_arg5) (V c main_v15) :=
  (dat1 V c).arrAt_eq_of_cover 4 _ (fun t _ => flushed1_eq V c t) cover1

end Cert.KernelIdeal.Blocks1

end
-- ==== Proof.Blocks2.lean ====
/-
  Region 2 (the fused stage between layers 2 and 3) as one function of the whole arrays.

  The region's output array is written back block by block: grid point t computes, from rows 5000·t … 5000·t + 4999 of
  the row-indexed operands and the whole of the small operands, the same rows of the result. The step at entry (p, q)
  reads only row p of the row-indexed operands, so what point t writes back is block t of the step applied to the
  whole arrays; the 20 blocks tile the 100000 rows, so after the region the array holds the step of the whole arrays.
-/
import proofs.«165064_j6184752906610_2_alg».proof.Proof.Gen.KernelIdeal.Frame
import proofs.«165064_j6184752906610_2_alg».proof.Proof.LibLayerSteps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks2

open Cert.KernelIdeal Cert.KernelIdeal.Gen Cert.LayerSteps

variable (V : (c : Dev nD) → (b : Ref sig .tc) → Buf (Elt Ideal) ((c : Thread nD τ).loc b))

theorem hz : (![0, 0] : Fin 2 → Nat) = fun _ => 0 := funext fun a => by fin_cases a <;> rfl

/-! ## Region 2: a fused stage (scale, bias and clip the aggregate; project; scale again) -/

/-- The body's arithmetic on a block is the fused step of the block. -/
theorem pay2_eq (b : Vec Ideal S1x32 .f32) (a : Vec Ideal S5000x32 .f32) (c : Vec Ideal S5000x1 .f32) (W : Vec Ideal S32x64 .f32)
    (c' : Vec Ideal S5000x1 .f32) :
    k2_pay1 b a c W c' = dotScale (R := 5000) (K := 32) (N := 64) (scaleBiasRelu a c b) W c' :=
  body_fused _ rfl b a c W c' _ _ _ _ _ _ _ _ _

/-- The printed index maps, decided over the 20 grid points: the row-blocked windows are at block (t, 0), the bias and
    weight windows at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 20 :=
  (by decide +kernel : ∀ t : Fin grid2.N, _)

/-- What point t writes back is block t (rows 5000·t … 5000·t + 4999) of the fused step of the whole arrays. -/
theorem flushed2_eq (c : Dev nD) (t : Fin cfg2.N) :
    (dat2 V c).flushed 4 t = ((cfg2.win 4).blk t).view.read (Elt Ideal)
      (dotScale (R := 100000) (K := 32) (N := 64) (scaleBiasRelu (V c main_v38) (V c main_v15) (V c main_v39)) (V c main_arg7) (V c main_v15)) := by
  show (cfg2.win 4).cut (grid2.coords t) ((dat2 V c).after 4 t) = _
  rw [after2_4]
  unfold out2_4
  rw [View.canon_unit_zero hz]
  simp only [View.ld_unit_zero (S := S5000x32) hz, View.ld_unit_zero (S := S5000x1) hz, View.ld_unit_zero (S := S1x32) hz,
    View.ld_unit_zero (S := S32x64) hz]
  rw [pay2_eq]
  obtain ⟨e0, e1, e2, e3, e4, e5, e6, e7, e8, e9, ht⟩ := idx2 t
  funext j
  obtain ⟨p, q, rfl⟩ : ∃ (p : Fin 5000) (q : Fin 64), j = ix2 p q := ⟨j 0, j 1, eq_ix2 j⟩
  let ρ : Fin 5000 → Fin 100000 := fun p => ⟨t.val * 5000 + p.val, by have := p.isLt; omega⟩
  show dotScale (scaleBiasRelu (iblk2 V c 0 t) (iblk2 V c 1 t) (iblk2 V c 2 t)) (iblk2 V c 3 t) (iblk2 V c 1 t) (ix2 p q)
      = dotScale (scaleBiasRelu (V c main_v38) (V c main_v15) (V c main_v39)) (V c main_arg7) (V c main_v15) (((cfg2.win 4).blk t).view.emb (ix2 p q))
  have hemb : ((cfg2.win 4).blk t).view.emb (ix2 p q) = ix2 (ρ p) q := by
    funext a; apply Fin.ext
    match a with
    | ⟨0, _⟩ => show win2_4.index t (0 : Fin 2) * 5000 + 1 * p.val = t.val * 5000 + p.val; rw [e8]; omega
    | ⟨1, _⟩ => show win2_4.index t (1 : Fin 2) * 64 + 1 * q.val = q.val; rw [e9]; omega
  rw [hemb]
  refine fused_rows ρ (V c main_v38) (V c main_v15) (V c main_v39) (V c main_arg7) (iblk2 V c 0 t) (iblk2 V c 1 t) (iblk2 V c 2 t) (iblk2 V c 3 t)
    ?_ ?_ ?_ ?_ p q
  · intro p k
    unfold iblk2
    rw [View.read_apply]
    show V c main_v38 _ = V c main_v38 _
    congr 1
    funext a; apply Fin.ext
    match a with
    | ⟨0, _⟩ => show win2_0.index t (0 : Fin 2) * 5000 + 1 * p.val = t.val * 5000 + p.val; rw [e0]; omega
    | ⟨1, _⟩ => show win2_0.index t (1 : Fin 2) * 32 + 1 * k.val = k.val; rw [e1]; omega
  · intro p
    unfold iblk2
    rw [View.read_apply]
    show V c main_v15 _ = V c main_v15 _
    congr 1
    funext a; apply Fin.ext
    match a with
    | ⟨0, _⟩ => show win2_1.index t (0 : Fin 2) * 5000 + 1 * p.val = t.val * 5000 + p.val; rw [e2]; omega
    | ⟨1, _⟩ => show win2_1.index t (1 : Fin 2) * 1 + 1 * 0 = 0; rw [e3]
  · funext x
    unfold iblk2
    rw [View.read_apply]
    show V c main_v39 _ = V c main_v39 x
    congr 1
    funext a; apply Fin.ext
    match a with
    | ⟨0, _⟩ => show win2_2.index t (0 : Fin 2) * 1 + 1 * (x 0).val = (x 0).val; rw [e4]; omega
    | ⟨1, _⟩ => show win2_2.index t (1 : Fin 2) * 32 + 1 * (x 1).val = (x 1).val; rw [e5]; omega
  · funext x
    unfold iblk2
    rw [View.read_apply]
    show V c main_arg7 _ = V c main_arg7 x
    congr 1
    funext a; apply Fin.ext
    match a with
    | ⟨0, _⟩ => show win2_3.index t (0 : Fin 2) * 32 + 1 * (x 0).val = (x 0).val; rw [e6]; omega
    | ⟨1, _⟩ => show win2_3.index t (1 : Fin 2) * 64 + 1 * (x 1).val = (x 1).val; rw [e7]; omega

/-- An index of the output array is in point t's block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v40).slice (win2_4.rect t)).set ↔ _
  rw [View.set_slice_whole, Rect.mem_set_unit]
  exact Iff.rfl

/-- Row r of the output array is written back by point r / 5000: the 20 blocks tile the array. -/
theorem cover2 (i : S100000x64.Idx) : ∃ t : Fin cfg2.N, (cfg2.win 4).flush t = true ∧ i ∈ ((cfg2.win 4).blk t).view.set := by
  have h0 : (i 0).val < 100000 := (i 0).isLt
  have h1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e8, e9, -⟩ := idx2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; rw [e8, ht]; omega
  | ⟨1, _⟩ => show win2_4.index t (1 : Fin 2) * 64 ≤ (i 1).val ∧ (i 1).val < win2_4.index t (1 : Fin 2) * 64 + 64; rw [e9]; omega

/-- After the region its output array holds the fused step of the whole arrays. -/
theorem arr2 (c : Dev nD) :
    (dat2 V c).arrAt 4 cfg2.N
      = dotScale (R := 100000) (K := 32) (N := 64) (scaleBiasRelu (V c main_v38) (V c main_v15) (V c main_v39)) (V c main_arg7) (V c main_v15) :=
  (dat2 V c).arrAt_eq_of_cover 4 _ (fun t _ => flushed2_eq V c t) cover2

end Cert.KernelIdeal.Blocks2

end
-- ==== Proof.Blocks3.lean ====
/-
  Region 3 (the last layer's scale, bias and clip) as one function of the whole arrays.

  The region's output array is written back block by block: grid point t computes, from rows 5000·t … 5000·t + 4999 of
  the row-indexed operands and the whole of the small operands, the same rows of the result. The step at entry (p, q)
  reads only row p of the row-indexed operands, so what point t writes back is block t of the step applied to the
  whole arrays; the 20 blocks tile the 100000 rows, so after the region the array holds the step of the whole arrays.
-/
import proofs.«165064_j6184752906610_2_alg».proof.Proof.Gen.KernelIdeal.Frame
import proofs.«165064_j6184752906610_2_alg».proof.Proof.LibLayerSteps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks3

open Cert.KernelIdeal Cert.KernelIdeal.Gen Cert.LayerSteps

variable (V : (c : Dev nD) → (b : Ref sig .tc) → Buf (Elt Ideal) ((c : Thread nD τ).loc b))

theorem hz : (![0, 0] : Fin 2 → Nat) = fun _ => 0 := funext fun a => by fin_cases a <;> rfl

/-! ## Region 3: the last stage (scale, bias and clip the aggregate) -/

/-- The body's arithmetic on a block is the scale, bias and clip step of the block. -/
theorem pay3_eq (b : Vec Ideal S1x64 .f32) (a : Vec Ideal S5000x64 .f32) (c : Vec Ideal S5000x1 .f32) :
    k3_pay1 b a c = scaleBiasRelu (R := 5000) (N := 64) a c b :=
  body_scaleBiasRelu a c b _ _ _ _ _ _

/-- The printed index maps, decided over the 20 grid points. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 20 :=
  (by decide +kernel : ∀ t : Fin grid3.N, _)

/-- What point t writes back is block t of the scale, bias and clip step of the whole arrays. -/
theorem flushed3_eq (c : Dev nD) (t : Fin cfg3.N) :
    (dat3 V c).flushed 3 t = ((cfg3.win 3).blk t).view.read (Elt Ideal)
      (scaleBiasRelu (R := 100000) (N := 64) (V c main_v50) (V c main_v15) (V c main_v51)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  rw [pay3_eq]
  obtain ⟨e0, e1, e2, e3, e4, e5, e6, e7, ht⟩ := idx3 t
  funext j
  obtain ⟨p, q, rfl⟩ : ∃ (p : Fin 5000) (q : Fin 64), j = ix2 p q := ⟨j 0, j 1, eq_ix2 j⟩
  let ρ : Fin 5000 → Fin 100000 := fun p => ⟨t.val * 5000 + p.val, by have := p.isLt; omega⟩
  show scaleBiasRelu (iblk3 V c 0 t) (iblk3 V c 1 t) (iblk3 V c 2 t) (ix2 p q)
      = scaleBiasRelu (V c main_v50) (V c main_v15) (V c main_v51) (((cfg3.win 3).blk t).view.emb (ix2 p q))
  have hemb : ((cfg3.win 3).blk t).view.emb (ix2 p q) = ix2 (ρ p) q := by
    funext a; apply Fin.ext
    match a with
    | ⟨0, _⟩ => show win3_3.index t (0 : Fin 2) * 5000 + 1 * p.val = t.val * 5000 + p.val; rw [e6]; omega
    | ⟨1, _⟩ => show win3_3.index t (1 : Fin 2) * 64 + 1 * q.val = q.val; rw [e7]; omega
  rw [hemb]
  refine scaleBiasRelu_rows ρ (V c main_v50) (V c main_v15) (V c main_v51) (iblk3 V c 0 t) (iblk3 V c 1 t) (iblk3 V c 2 t) ?_ ?_ ?_ p q
  · intro p k
    unfold iblk3
    rw [View.read_apply]
    show V c main_v50 _ = V c main_v50 _
    congr 1
    funext a; apply Fin.ext
    match a with
    | ⟨0, _⟩ => show win3_0.index t (0 : Fin 2) * 5000 + 1 * p.val = t.val * 5000 + p.val; rw [e0]; omega
    | ⟨1, _⟩ => show win3_0.index t (1 : Fin 2) * 64 + 1 * k.val = k.val; rw [e1]; omega
  · intro p
    unfold iblk3
    rw [View.read_apply]
    show V c main_v15 _ = V c main_v15 _
    congr 1
    funext a; apply Fin.ext
    match a with
    | ⟨0, _⟩ => show win3_1.index t (0 : Fin 2) * 5000 + 1 * p.val = t.val * 5000 + p.val; rw [e2]; omega
    | ⟨1, _⟩ => show win3_1.index t (1 : Fin 2) * 1 + 1 * 0 = 0; rw [e3]
  · funext x
    unfold iblk3
    rw [View.read_apply]
    show V c main_v51 _ = V c main_v51 x
    congr 1
    funext a; apply Fin.ext
    match a with
    | ⟨0, _⟩ => show win3_2.index t (0 : Fin 2) * 1 + 1 * (x 0).val = (x 0).val; rw [e4]; omega
    | ⟨1, _⟩ => show win3_2.index t (1 : Fin 2) * 64 + 1 * (x 1).val = (x 1).val; rw [e5]; omega

/-- An index of the output array is in point t's block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v52).slice (win3_3.rect t)).set ↔ _
  rw [View.set_slice_whole, Rect.mem_set_unit]
  exact Iff.rfl

/-- Row r of the output array is written back by point r / 5000: the 20 blocks tile the array. -/
theorem cover3 (i : S100000x64.Idx) : ∃ t : Fin cfg3.N, (cfg3.win 3).flush t = true ∧ i ∈ ((cfg3.win 3).blk t).view.set := by
  have h0 : (i 0).val < 100000 := (i 0).isLt
  have h1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e6, e7, -⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 64 ≤ (i 1).val ∧ (i 1).val < win3_3.index t (1 : Fin 2) * 64 + 64; rw [e7]; omega

/-- After the region its output array holds the scale, bias and clip step of the whole arrays. -/
theorem arr3 (c : Dev nD) :
    (dat3 V c).arrAt 3 cfg3.N = scaleBiasRelu (R := 100000) (N := 64) (V c main_v50) (V c main_v15) (V c main_v51) :=
  (dat3 V c).arrAt_eq_of_cover 3 _ (fun t _ => flushed3_eq V c t) cover3

end Cert.KernelIdeal.Blocks3

end
-- ==== Proof.KernelRun.lean ====
/-
  The idealized kernel's run with its RESULT named.

  The program is four TensorCore regions among stretches of host operations. Its buffer contents at each boundary
  are a fold from the launch memory: a host stretch rewrites the buffers its operations write, a region leaves its
  output array at what the write-backs of its grid points leave and every other buffer as entered. The last boundary's
  contents are `Gen.W11`. Every weakly fair execution terminates without a fault in a state whose result buffer holds
  `W11` at the result's reference, and whose argument arrays are as launched: the same launch theorem over the same
  segments as the frame, with the result's buffer read off the last thread state beside the arguments'.
-/
import proofs.«165064_j6184752906610_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v69) = W11 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v69 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Run

end
-- ==== Proof.KernelChain.lean ====
/-
  The idealized kernel's result as one function of its arguments.

  Walking the boundaries of the program in order: the host computes the source and target index vectors (the given
  edges followed by one self-loop per node), the degree of every node and from it the node factor d; region 0 projects
  the input features and scales the rows by d; each host stretch aggregates the previous region's output over the
  edges; regions 1 and 2 scale the aggregate by d, add the bias, clip at zero, project and scale by d again; region 3
  scales, adds the bias and clips; the last stretch pools per graph. Every buffer a boundary does not write keeps its
  contents, so at each boundary the index vectors, the node factor and the arguments are what they were.
-/
import proofs.«165064_j6184752906610_2_alg».proof.Proof.KernelFolds
import proofs.«165064_j6184752906610_2_alg».proof.Proof.Blocks0
import proofs.«165064_j6184752906610_2_alg».proof.Proof.Blocks1
import proofs.«165064_j6184752906610_2_alg».proof.Proof.Blocks2
import proofs.«165064_j6184752906610_2_alg».proof.Proof.Blocks3
import proofs.«165064_j6184752906610_2_alg».proof.Proof.KernelRun

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Chain

open Cert.KernelIdeal Cert.KernelIdeal.Gen Cert.KernelIdeal.Folds Cert.GraphOps Cert.LayerSteps

variable (m : (ℓ : Loc nD τ sig) → Buf (Elt Ideal) ℓ) (ρ : Dev nD → PrngReg)

/-! ## The values -/

/-- The source index of every edge: row 0 of the edge list, then one self-loop per node. -/
def rowV (c : Dev nD) : IVec S3300000 32 :=
  concatenate S3300000 0 [⟨S3200000, (shapeCast _ (extractStridedSlice S1x3200000 ![0, 0] (m ((c : Thread nD τ).loc main_arg1)) slices_S2x3200000_S1x3200000_0_0) shapeCasts_S1x3200000_S3200000)⟩, ⟨S100000, (iotaInDim S100000 32 0)⟩] concatenates_S3200000_S100000_S3300000_d0

/-- The target index of every edge: row 1 of the edge list, then one self-loop per node. -/
def colV (c : Dev nD) : IVec S3300000 32 :=
  concatenate S3300000 0 [⟨S3200000, (shapeCast _ (extractStridedSlice S1x3200000 ![1, 0] (m ((c : Thread nD τ).loc main_arg1)) slices_S2x3200000_S1x3200000_1_0) shapeCasts_S1x3200000_S3200000)⟩, ⟨S100000, (iotaInDim S100000 32 0)⟩] concatenates_S3200000_S100000_S3300000_d0

/-- The node factor: 1/sqrt of the number of edges landing on the node (0 where there is none). -/
def dinvV (c : Dev nD) : FVec Ideal S100000 .f32 :=
  nodeFactor (N := 100000) bcast_S_S100000
    (degree (N := 100000) (E := 3300000) (dS := scatter_S100000_S3300000x1_S3300000_n_0_0_1) bcast_S_S100000 bcast_S_S3300000 bcast_S3300000_S3300000x1_0 (colV m c))

/-- The node factor as a column. -/
def dinv2V (c : Dev nD) : FVec Ideal S100000x1 .f32 := shapeCast S100000x1 (dinvV m c) shapeCasts_S100000_S100000x1

/-- The three bias vectors as rows. -/
def b1r (c : Dev nD) : FVec Ideal S1x16 .f32 := shapeCast S1x16 (m ((c : Thread nD τ).loc main_arg4)) shapeCasts_S16_S1x16
def b2r (c : Dev nD) : FVec Ideal S1x32 .f32 := shapeCast S1x32 (m ((c : Thread nD τ).loc main_arg6)) shapeCasts_S32_S1x32
def b3r (c : Dev nD) : FVec Ideal S1x64 .f32 := shapeCast S1x64 (m ((c : Thread nD τ).loc main_arg8)) shapeCasts_S64_S1x64

/-- Layer 1's scaled projection, its aggregate; layer 2's; layer 3's; the third layer's features; the result. -/
def hs1 (c : Dev nD) : FVec Ideal S100000x16 .f32 :=
  dotScale (R := 100000) (K := 128) (N := 16) (m ((c : Thread nD τ).loc main_arg0)) (m ((c : Thread nD τ).loc main_arg3)) (dinv2V m c)
def raw1 (c : Dev nD) : FVec Ideal S100000x16 .f32 :=
  plainAgg (N := 100000) (E := 3300000) (D := 16) scatter_S100000x16_S3300000x1_S3300000x16_1_0_0_1.wf
    gather_S100000x16_S3300000x1_S3300000x16_1_0_n_n_0_1_116.wf bcast_S_S100000x16 bcast_S3300000_S3300000x1_0 bcast_S_S3300000 100000#32 (hs1 m c) (rowV m c) (colV m c)
def hs2 (c : Dev nD) : FVec Ideal S100000x32 .f32 :=
  dotScale (R := 100000) (K := 16) (N := 32) (scaleBiasRelu (raw1 m c) (dinv2V m c) (b1r m c)) (m ((c : Thread nD τ).loc main_arg5)) (dinv2V m c)
def raw2 (c : Dev nD) : FVec Ideal S100000x32 .f32 :=
  plainAgg (N := 100000) (E := 3300000) (D := 32) scatter_S100000x32_S3300000x1_S3300000x32_1_0_0_1.wf
    gather_S100000x32_S3300000x1_S3300000x32_1_0_n_n_0_1_132.wf bcast_S_S100000x32 bcast_S3300000_S3300000x1_0 bcast_S_S3300000 100000#32 (hs2 m c) (rowV m c) (colV m c)
def hs3 (c : Dev nD) : FVec Ideal S100000x64 .f32 :=
  dotScale (R := 100000) (K := 32) (N := 64) (scaleBiasRelu (raw2 m c) (dinv2V m c) (b2r m c)) (m ((c : Thread nD τ).loc main_arg7)) (dinv2V m c)
def raw3 (c : Dev nD) : FVec Ideal S100000x64 .f32 :=
  plainAgg (N := 100000) (E := 3300000) (D := 64) scatter_S100000x64_S3300000x1_S3300000x64_1_0_0_1.wf
    gather_S100000x64_S3300000x1_S3300000x64_1_0_n_n_0_1_164.wf bcast_S_S100000x64 bcast_S3300000_S3300000x1_0 bcast_S_S3300000 100000#32 (hs3 m c) (rowV m c) (colV m c)
def hK (c : Dev nD) : FVec Ideal S100000x64 .f32 :=
  scaleBiasRelu (R := 100000) (N := 64) (raw3 m c) (dinv2V m c) (b3r m c)
def outK (c : Dev nD) : FVec Ideal S1000 .f32 :=
  tailK (hK m c) (m ((c : Thread nD τ).loc main_arg2)) (m ((c : Thread nD τ).loc main_arg9)) (m ((c : Thread nD τ).loc main_arg10))

/-! ## The degree and the node factor, read off the host stretches before region 0 -/

section Pre
variable (W : Valuation τ sig (Elt Ideal))

/-- The target index vector as a function of the edge list. -/
def colK (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The degree of every node as a function of the edge list. -/
def degK (ei : IVec S2x3200000 32) : FVec Ideal S100000 .f32 :=
  degree (N := 100000) (E := 3300000) (dS := scatter_S100000_S3300000x1_S3300000_n_0_0_1) bcast_S_S100000 bcast_S_S3300000 bcast_S3300000_S3300000x1_0 (colK ei)

theorem pre0_v12 : StableHlo.after hostOps0 W (Proc.devRef .tc main_v12)
    = cmpf (F := Ideal) .ogt (degK (W (Proc.devRef .tc main_arg1))) (broadcastInDim S100000 ![] bcast_S_S100000 (constant (F := Ideal) S_ .f32 0x00000000#32)) := by
  dsimp only [hostOps0]
  after_results
  rfl

theorem pre0_v13 : StableHlo.after hostOps0 W (Proc.devRef .tc main_v13) = Host.rsqrt (degK (W (Proc.devRef .tc main_arg1))) := by
  dsimp only [hostOps0]
  after_results
  rfl

theorem pre0_cst_2 : StableHlo.after hostOps0 W (Proc.devRef .tc main_cst_2) = constant (F := Ideal) S_ .f32 0x00000000#32 := by
  dsimp only [hostOps0]
  after_results

theorem pre1_v14 : StableHlo.after hostOps0_1 W (Proc.devRef .tc main_v14)
    = select (W (Proc.devRef .tc main_v12)) (W (Proc.devRef .tc main_v13)) (broadcastInDim S100000 ![] bcast_S_S100000 (id (W (Proc.devRef .tc main_cst_2)))) := by
  dsimp only [hostOps0_1]
  after_results_simp <;> rfl

theorem pre2_v15 : StableHlo.after hostOps0_2 W (Proc.devRef .tc main_v15)
    = shapeCast S100000x1 (W (Proc.devRef .tc main_v14)) shapeCasts_S100000_S100000x1 := by
  dsimp only [hostOps0_2]
  after_results
  rfl

end Pre

/-! ## From the launch to region 0's entry -/

/-- A buffer's contents at region 0's entry, read back through the three host stretches before it to the launch memory. -/
local macro "from_launch" : tactic => `(tactic| (
  show StableHlo.after hostOps0_2 (StableHlo.after hostOps0_1 (StableHlo.after hostOps0 _)) _ = _
  dsimp only [hostOps0, hostOps0_1, hostOps0_2]
  after_results_simp <;> rfl))

theorem W3_arg0 (c : Dev nD) : W3 m ρ c (Proc.devRef .tc main_arg0) = m ((c : Thread nD τ).loc main_arg0) := by from_launch
theorem W3_arg2 (c : Dev nD) : W3 m ρ c (Proc.devRef .tc main_arg2) = m ((c : Thread nD τ).loc main_arg2) := by from_launch
theorem W3_arg3 (c : Dev nD) : W3 m ρ c (Proc.devRef .tc main_arg3) = m ((c : Thread nD τ).loc main_arg3) := by from_launch
theorem W3_arg4 (c : Dev nD) : W3 m ρ c (Proc.devRef .tc main_arg4) = m ((c : Thread nD τ).loc main_arg4) := by from_launch
theorem W3_arg5 (c : Dev nD) : W3 m ρ c (Proc.devRef .tc main_arg5) = m ((c : Thread nD τ).loc main_arg5) := by from_launch
theorem W3_arg6 (c : Dev nD) : W3 m ρ c (Proc.devRef .tc main_arg6) = m ((c : Thread nD τ).loc main_arg6) := by from_launch
theorem W3_arg7 (c : Dev nD) : W3 m ρ c (Proc.devRef .tc main_arg7) = m ((c : Thread nD τ).loc main_arg7) := by from_launch
theorem W3_arg8 (c : Dev nD) : W3 m ρ c (Proc.devRef .tc main_arg8) = m ((c : Thread nD τ).loc main_arg8) := by from_launch
theorem W3_arg9 (c : Dev nD) : W3 m ρ c (Proc.devRef .tc main_arg9) = m ((c : Thread nD τ).loc main_arg9) := by from_launch
theorem W3_arg10 (c : Dev nD) : W3 m ρ c (Proc.devRef .tc main_arg10) = m ((c : Thread nD τ).loc main_arg10) := by from_launch
theorem W3_v3 (c : Dev nD) : W3 m ρ c (Proc.devRef .tc main_v3) = rowV m c := by from_launch
theorem W3_v6 (c : Dev nD) : W3 m ρ c (Proc.devRef .tc main_v6) = colV m c := by from_launch
theorem W3_v15 (c : Dev nD) : W3 m ρ c (Proc.devRef .tc main_v15) = dinv2V m c := by
  refine (pre2_v15 (W2 m ρ c)).trans ?_
  rw [show W2 m ρ c (Proc.devRef .tc main_v14) = _ from pre1_v14 (W1 m ρ c)]
  rw [show W1 m ρ c (Proc.devRef .tc main_v12) = _ from pre0_v12 (W0 m ρ c), show W1 m ρ c (Proc.devRef .tc main_v13) = _ from pre0_v13 (W0 m ρ c),
    show W1 m ρ c (Proc.devRef .tc main_cst_2) = _ from pre0_cst_2 (W0 m ρ c)]
  rfl

/-! ## Through region 0 -/

theorem W4_v3 (c : Dev nD) : W4 m ρ c (Proc.devRef .tc main_v3) = rowV m c :=
  (W4_of_ne m ρ c main_v3 (by decide)).trans (W3_v3 m ρ c)
theorem W4_v6 (c : Dev nD) : W4 m ρ c (Proc.devRef .tc main_v6) = colV m c :=
  (W4_of_ne m ρ c main_v6 (by decide)).trans (W3_v6 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_v15 (c : Dev nD) : W4 m ρ c (Proc.devRef .tc main_v15) = dinv2V m c :=
  ((W4_arr m ρ c 2).trans (((dat0 (V3 m ρ) c).arrAt_in 2 rfl _).trans (A_eq0 (V3 m ρ) c 2))).trans (W3_v15 m ρ c)
theorem W4_v16 (c : Dev nD) : W4 m ρ c (Proc.devRef .tc main_v16) = hs1 m c := by
  refine (W4_arr m ρ c 3).trans ((Blocks0.arr0 (V3 m ρ) c).trans ?_)
  show dotScale (R := 100000) (K := 128) (N := 16) (W3 m ρ c (Proc.devRef .tc main_arg0)) (W3 m ρ c (Proc.devRef .tc main_arg3)) (W3 m ρ c (Proc.devRef .tc main_v15)) = _
  rw [W3_arg0, W3_arg3, W3_v15]
  rfl

/-! ## Through the host stretch 1 -/

theorem W5_v3 (c : Dev nD) : W5 m ρ c (Proc.devRef .tc main_v3) = rowV m c :=
  (keep1 (W4 m ρ c) main_v3 (by decide)).trans (W4_v3 m ρ c)
theorem W5_v6 (c : Dev nD) : W5 m ρ c (Proc.devRef .tc main_v6) = colV m c :=
  (keep1 (W4 m ρ c) main_v6 (by decide)).trans (W4_v6 m ρ c)
theorem W5_v15 (c : Dev nD) : W5 m ρ c (Proc.devRef .tc main_v15) = dinv2V m c :=
  (keep1 (W4 m ρ c) main_v15 (by decide)).trans (W4_v15 m ρ c)
theorem W5_arg2 (c : Dev nD) : W5 m ρ c (Proc.devRef .tc main_arg2) = m ((c : Thread nD τ).loc main_arg2) :=
  (keep1 (W4 m ρ c) main_arg2 (by decide)).trans (W4_arg2 m ρ c)
theorem W5_arg5 (c : Dev nD) : W5 m ρ c (Proc.devRef .tc main_arg5) = m ((c : Thread nD τ).loc main_arg5) :=
  (keep1 (W4 m ρ c) main_arg5 (by decide)).trans (W4_arg5 m ρ c)
theorem W5_arg6 (c : Dev nD) : W5 m ρ c (Proc.devRef .tc main_arg6) = m ((c : Thread nD τ).loc main_arg6) :=
  (keep1 (W4 m ρ c) main_arg6 (by decide)).trans (W4_arg6 m ρ c)
theorem W5_arg7 (c : Dev nD) : W5 m ρ c (Proc.devRef .tc main_arg7) = m ((c : Thread nD τ).loc main_arg7) :=
  (keep1 (W4 m ρ c) main_arg7 (by decide)).trans (W4_arg7 m ρ c)
theorem W5_arg8 (c : Dev nD) : W5 m ρ c (Proc.devRef .tc main_arg8) = m ((c : Thread nD τ).loc main_arg8) :=
  (keep1 (W4 m ρ c) main_arg8 (by decide)).trans (W4_arg8 m ρ c)
theorem W5_arg9 (c : Dev nD) : W5 m ρ c (Proc.devRef .tc main_arg9) = m ((c : Thread nD τ).loc main_arg9) :=
  (keep1 (W4 m ρ c) main_arg9 (by decide)).trans (W4_arg9 m ρ c)
theorem W5_arg10 (c : Dev nD) : W5 m ρ c (Proc.devRef .tc main_arg10) = m ((c : Thread nD τ).loc main_arg10) :=
  (keep1 (W4 m ρ c) main_arg10 (by decide)).trans (W4_arg10 m ρ c)
theorem W5_v26 (c : Dev nD) : W5 m ρ c (Proc.devRef .tc main_v26) = raw1 m c := by
  refine (fold1_v26 (W4 m ρ c)).trans ?_
  rw [W4_v16, W4_v3, W4_v6]
  rfl
theorem W5_v27 (c : Dev nD) : W5 m ρ c (Proc.devRef .tc main_v27) = b1r m c := by
  refine (fold1_v27 (W4 m ρ c)).trans ?_
  rw [W4_arg4]
  rfl

/-! ## Through region 1 -/

theorem W6_v3 (c : Dev nD) : W6 m ρ c (Proc.devRef .tc main_v3) = rowV m c :=
  (W6_of_ne m ρ c main_v3 (by decide)).trans (W5_v3 m ρ c)
theorem W6_v6 (c : Dev nD) : W6 m ρ c (Proc.devRef .tc main_v6) = colV m c :=
  (W6_of_ne m ρ c main_v6 (by decide)).trans (W5_v6 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W6_v15 (c : Dev nD) : W6 m ρ c (Proc.devRef .tc main_v15) = dinv2V m c :=
  ((W6_arr m ρ c 1).trans (((dat1 (V5 m ρ) c).arrAt_in 1 rfl _).trans (A_eq1 (V5 m ρ) c 1))).trans (W5_v15 m ρ c)
theorem W6_v28 (c : Dev nD) : W6 m ρ c (Proc.devRef .tc main_v28) = hs2 m c := by
  refine (W6_arr m ρ c 4).trans ((Blocks1.arr1 (V5 m ρ) c).trans ?_)
  show dotScale (R := 100000) (K := 16) (N := 32) (scaleBiasRelu (W5 m ρ c (Proc.devRef .tc main_v26)) (W5 m ρ c (Proc.devRef .tc main_v15)) (W5 m ρ c (Proc.devRef .tc main_v27))) (W5 m ρ c (Proc.devRef .tc main_arg5)) (W5 m ρ c (Proc.devRef .tc main_v15)) = _
  rw [W5_v26, W5_v15, W5_v27, W5_arg5]
  rfl

/-! ## Through the host stretch 2 -/

theorem W7_v3 (c : Dev nD) : W7 m ρ c (Proc.devRef .tc main_v3) = rowV m c :=
  (keep2 (W6 m ρ c) main_v3 (by decide)).trans (W6_v3 m ρ c)
theorem W7_v6 (c : Dev nD) : W7 m ρ c (Proc.devRef .tc main_v6) = colV m c :=
  (keep2 (W6 m ρ c) main_v6 (by decide)).trans (W6_v6 m ρ c)
theorem W7_v15 (c : Dev nD) : W7 m ρ c (Proc.devRef .tc main_v15) = dinv2V m c :=
  (keep2 (W6 m ρ c) main_v15 (by decide)).trans (W6_v15 m ρ c)
theorem W7_arg2 (c : Dev nD) : W7 m ρ c (Proc.devRef .tc main_arg2) = m ((c : Thread nD τ).loc main_arg2) :=
  (keep2 (W6 m ρ c) main_arg2 (by decide)).trans (W6_arg2 m ρ c)
theorem W7_arg7 (c : Dev nD) : W7 m ρ c (Proc.devRef .tc main_arg7) = m ((c : Thread nD τ).loc main_arg7) :=
  (keep2 (W6 m ρ c) main_arg7 (by decide)).trans (W6_arg7 m ρ c)
theorem W7_arg8 (c : Dev nD) : W7 m ρ c (Proc.devRef .tc main_arg8) = m ((c : Thread nD τ).loc main_arg8) :=
  (keep2 (W6 m ρ c) main_arg8 (by decide)).trans (W6_arg8 m ρ c)
theorem W7_arg9 (c : Dev nD) : W7 m ρ c (Proc.devRef .tc main_arg9) = m ((c : Thread nD τ).loc main_arg9) :=
  (keep2 (W6 m ρ c) main_arg9 (by decide)).trans (W6_arg9 m ρ c)
theorem W7_arg10 (c : Dev nD) : W7 m ρ c (Proc.devRef .tc main_arg10) = m ((c : Thread nD τ).loc main_arg10) :=
  (keep2 (W6 m ρ c) main_arg10 (by decide)).trans (W6_arg10 m ρ c)
theorem W7_v38 (c : Dev nD) : W7 m ρ c (Proc.devRef .tc main_v38) = raw2 m c := by
  refine (fold2_v38 (W6 m ρ c)).trans ?_
  rw [W6_v28, W6_v3, W6_v6]
  rfl
theorem W7_v39 (c : Dev nD) : W7 m ρ c (Proc.devRef .tc main_v39) = b2r m c := by
  refine (fold2_v39 (W6 m ρ c)).trans ?_
  rw [W6_arg6]
  rfl

/-! ## Through region 2 -/

theorem W8_v3 (c : Dev nD) : W8 m ρ c (Proc.devRef .tc main_v3) = rowV m c :=
  (W8_of_ne m ρ c main_v3 (by decide)).trans (W7_v3 m ρ c)
theorem W8_v6 (c : Dev nD) : W8 m ρ c (Proc.devRef .tc main_v6) = colV m c :=
  (W8_of_ne m ρ c main_v6 (by decide)).trans (W7_v6 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W8_arg8 (c : Dev nD) : W8 m ρ c (Proc.devRef .tc main_arg8) = m ((c : Thread nD τ).loc main_arg8) :=
  (W8_of_ne m ρ c main_arg8 (by decide)).trans (W7_arg8 m ρ c)
theorem W8_arg9 (c : Dev nD) : W8 m ρ c (Proc.devRef .tc main_arg9) = m ((c : Thread nD τ).loc main_arg9) :=
  (W8_of_ne m ρ c main_arg9 (by decide)).trans (W7_arg9 m ρ c)
theorem W8_arg10 (c : Dev nD) : W8 m ρ c (Proc.devRef .tc main_arg10) = m ((c : Thread nD τ).loc main_arg10) :=
  (W8_of_ne m ρ c main_arg10 (by decide)).trans (W7_arg10 m ρ c)
theorem W8_v15 (c : Dev nD) : W8 m ρ c (Proc.devRef .tc main_v15) = dinv2V m c :=
  ((W8_arr m ρ c 1).trans (((dat2 (V7 m ρ) c).arrAt_in 1 rfl _).trans (A_eq2 (V7 m ρ) c 1))).trans (W7_v15 m ρ c)
theorem W8_v40 (c : Dev nD) : W8 m ρ c (Proc.devRef .tc main_v40) = hs3 m c := by
  refine (W8_arr m ρ c 4).trans ((Blocks2.arr2 (V7 m ρ) c).trans ?_)
  show dotScale (R := 100000) (K := 32) (N := 64) (scaleBiasRelu (W7 m ρ c (Proc.devRef .tc main_v38)) (W7 m ρ c (Proc.devRef .tc main_v15)) (W7 m ρ c (Proc.devRef .tc main_v39))) (W7 m ρ c (Proc.devRef .tc main_arg7)) (W7 m ρ c (Proc.devRef .tc main_v15)) = _
  rw [W7_v38, W7_v15, W7_v39, W7_arg7]
  rfl

/-! ## Through the host stretch 3 -/

theorem W9_v15 (c : Dev nD) : W9 m ρ c (Proc.devRef .tc main_v15) = dinv2V m c :=
  (keep3 (W8 m ρ c) main_v15 (by decide)).trans (W8_v15 m ρ c)
theorem W9_arg2 (c : Dev nD) : W9 m ρ c (Proc.devRef .tc main_arg2) = m ((c : Thread nD τ).loc main_arg2) :=
  (keep3 (W8 m ρ c) main_arg2 (by decide)).trans (W8_arg2 m ρ c)
theorem W9_arg9 (c : Dev nD) : W9 m ρ c (Proc.devRef .tc main_arg9) = m ((c : Thread nD τ).loc main_arg9) :=
  (keep3 (W8 m ρ c) main_arg9 (by decide)).trans (W8_arg9 m ρ c)
theorem W9_arg10 (c : Dev nD) : W9 m ρ c (Proc.devRef .tc main_arg10) = m ((c : Thread nD τ).loc main_arg10) :=
  (keep3 (W8 m ρ c) main_arg10 (by decide)).trans (W8_arg10 m ρ c)
theorem W9_v50 (c : Dev nD) : W9 m ρ c (Proc.devRef .tc main_v50) = raw3 m c := by
  refine (fold3_v50 (W8 m ρ c)).trans ?_
  rw [W8_v40, W8_v3, W8_v6]
  rfl
theorem W9_v51 (c : Dev nD) : W9 m ρ c (Proc.devRef .tc main_v51) = b3r m c := by
  refine (fold3_v51 (W8 m ρ c)).trans ?_
  rw [W8_arg8]
  rfl

/-! ## Through region 3 -/

theorem W10_arg2 (c : Dev nD) : W10 m ρ c (Proc.devRef .tc main_arg2) = m ((c : Thread nD τ).loc main_arg2) :=
  (W10_of_ne m ρ c main_arg2 (by decide)).trans (W9_arg2 m ρ c)
theorem W10_arg9 (c : Dev nD) : W10 m ρ c (Proc.devRef .tc main_arg9) = m ((c : Thread nD τ).loc main_arg9) :=
  (W10_of_ne m ρ c main_arg9 (by decide)).trans (W9_arg9 m ρ c)
theorem W10_arg10 (c : Dev nD) : W10 m ρ c (Proc.devRef .tc main_arg10) = m ((c : Thread nD τ).loc main_arg10) :=
  (W10_of_ne m ρ c main_arg10 (by decide)).trans (W9_arg10 m ρ c)
theorem W10_v52 (c : Dev nD) : W10 m ρ c (Proc.devRef .tc main_v52) = hK m c := by
  refine (W10_arr m ρ c 3).trans ((Blocks3.arr3 (V9 m ρ) c).trans ?_)
  show scaleBiasRelu (R := 100000) (N := 64) (W9 m ρ c (Proc.devRef .tc main_v50)) (W9 m ρ c (Proc.devRef .tc main_v15)) (W9 m ρ c (Proc.devRef .tc main_v51)) = _
  rw [W9_v50, W9_v15, W9_v51]
  rfl

/-! ## The result -/

/-- The last boundary's contents at the result's buffer: the pooling tail of the third layer's features. -/
theorem W11_v69 (c : Dev nD) : W11 m ρ c (Proc.devRef .tc main_v69) = outK m c := by
  refine (fold4_v69 (W10 m ρ c)).trans ?_
  rw [W10_v52, W10_arg2, W10_arg9, W10_arg10]
  rfl

/-! ## The run -/

/-- Every weakly fair execution of the idealized kernel terminates, nothing faulting, with its result at `outK` of the
    launch contents and its arguments unchanged. -/
theorem run : θ_run defs (onTc (τ := τ) (main (F := Ideal))) ⟨m, fun _ => 0, ρ⟩ (fun r => ∀ c : Dev nD,
      r.2.mem ((c.tc : Thread nD τ).loc main_v69) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (W11_v69 m ρ c), (h c).2⟩) (Cert.KernelIdeal.Run.run_result m ρ)

end Cert.KernelIdeal.Chain

end
-- ==== Proof.LibEdgeSumLaw.lean ====
/-
  The one algebraic law that joins the two forms of a normalized graph aggregation.

  For a node n let S be the set of edges that land on n. With a per-node factor d, one form scales every source row
  by d(source) BEFORE the edge sum and scales the sum by d(n) after it; the other multiplies every term of the edge sum
  by the per-edge product d(source) · d(target), where the target of every edge in S is n:

      (0 + ∑_{e ∈ S} t(e) · d(src e)) · d(n)  =  0 + ∑_{e ∈ S} t(e) · (d(src e) · d(tgt e)).

  On the extended reals a factor can be moved across a sum only when no infinities meet, so the law is stated for
  terms and factors that are real numbers; then both sides are the coercion of one real number.
-/
import proofs.«165064_j6184752906610_2_alg».proof.Proof.LibRealEntries

noncomputable section

namespace Cert.EdgeSumLaw

open scoped BigOperators
open Cert.LibRealEntries

/-- The larger of two real numbers is a real number. -/
theorem real_max {a b : EReal} (ha : ∃ r : ℝ, a = (r : EReal)) (hb : ∃ r : ℝ, b = (r : EReal)) :
    ∃ r : ℝ, max a b = (r : EReal) := by
  rcases max_choice a b with h | h <;> rw [h] <;> assumption

/-- The zero of the extended reals is a real number. -/
theorem real_zero' : ∃ r : ℝ, (0 : EReal) = (r : EReal) := ⟨0, rfl⟩

/-- Scaling the sources before the edge sum and the target after it is the per-edge product inside the sum, when the
    terms and the factors are real and every edge of the sum has the target n. -/
theorem scale_across_sum {ι : Type} (s : Finset ι) (tm ds dt : ι → EReal) (dn : EReal)
    (ht : ∀ e, ∃ r : ℝ, tm e = (r : EReal)) (hds : ∀ e, ∃ r : ℝ, ds e = (r : EReal)) (hdn : ∃ r : ℝ, dn = (r : EReal))
    (hdt : ∀ e ∈ s, dt e = dn) :
    (0 + ∑ e ∈ s, tm e * ds e) * dn = 0 + ∑ e ∈ s, tm e * (ds e * dt e) := by
  have h1 : ∑ e ∈ s, tm e * (ds e * dt e) = ∑ e ∈ s, tm e * (ds e * dn) :=
    Finset.sum_congr rfl fun e he => by rw [hdt e he]
  rw [h1]
  choose t' ht' using ht
  choose ds' hds' using hds
  obtain ⟨dn', rfl⟩ := hdn
  simp only [ht', hds', zero_add, ← EReal.coe_mul, ← coe_sum]
  refine congrArg _ ?_
  rw [Finset.sum_mul]
  exact Finset.sum_congr rfl fun e _ => by ring

end Cert.EdgeSumLaw

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.LibLayerBridge.lean ====
/-
  One normalized graph-convolution layer in two orders, and why they agree on real data.

  With features f (N×K), weights W (K×D), bias b, a per-node factor d, and for a node n the set S(n) of edges landing
  on n, write t(e, q) = Σₖ f(src e, k)·W(k, q) for the projected source row of edge e. The two orders are

      first order   (n, q) ↦ max ( (0 + Σ_{e ∈ S(n)} t(e, q)·d(src e)) · d(n) + b(q) ) 0
      second order  (n, q) ↦ max ( (0 + Σ_{e ∈ S(n)} t(e, q)·(d(src e)·d(tgt e))) + b(q) ) 0

  the first scaling the projected rows by d before the edge sum and the sum by d(n) after it, the second multiplying
  every term by the per-edge product. An edge in S(n) has a non-negative target word that reads as n, so the row its
  target reads is n and d(tgt e) = d(n): the target's factor is the same for every term and can be moved across the
  edge sum. On the extended reals that step needs the terms and the factors to be real numbers, which is why the
  features, the weights and the node factors are assumed real (the bias may be anything: it is added after).

  The second order, read at an entry the same way, is the larger of the literal zero and a real edge sum plus a bias
  entry, so with a real bias as well every entry of the layer is a real number.
-/
import proofs.«165064_j6184752906610_2_alg».proof.Proof.LibGraphOps
import proofs.«165064_j6184752906610_2_alg».proof.Proof.LibLayerSteps
import proofs.«165064_j6184752906610_2_alg».proof.Proof.LibEdgeSumLaw
import proofs.«165064_j6184752906610_2_alg».proof.Proof.LibBiasRow

noncomputable section

open scoped BigOperators

namespace Cert.LayerBridge

open Idealize.ShloMosaic Idealize.ShloMosaic.ValueIdx Cert.GraphOps Cert.LayerSteps Cert.LibRealEntries Cert.EdgeSumLaw

variable {N E K D : ℕ}

/-- One layer in the kernel's order: project the features and scale the rows by the node factor, sum the source rows
    over the edges landing on each node, scale by the node factor again, add the bias and clip at zero. -/
def layerK (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (hc : (⟨1, ![E]⟩ : Shape).BroadcastsInDim ⟨2, ![E, 1]⟩ ![0])
    (hbz : (⟨0, ![]⟩ : Shape).BroadcastsInDim ⟨1, ![E]⟩ ![]) (NN : BitVec 32)
    (hsc : (⟨1, ![N]⟩ : Shape).ShapeCasts ⟨2, ![N, 1]⟩) (hsb : (⟨1, ![D]⟩ : Shape).ShapeCasts ⟨2, ![1, D]⟩)
    (f : FVec Ideal ⟨2, ![N, K]⟩ .f32) (W : FVec Ideal ⟨2, ![K, D]⟩ .f32) (b : FVec Ideal ⟨1, ![D]⟩ .f32)
    (dinv : FVec Ideal ⟨1, ![N]⟩ .f32) (row col : IVec ⟨1, ![E]⟩ 32) : FVec Ideal ⟨2, ![N, D]⟩ .f32 :=
  scaleBiasRelu (plainAgg wfs wfg hb0 hc hbz NN (dotScale f W (shapeCast ⟨2, ![N, 1]⟩ dinv hsc)) row col)
    (shapeCast ⟨2, ![N, 1]⟩ dinv hsc) (shapeCast ⟨2, ![1, D]⟩ b hsb)

/-- One layer in the reference's order: project the features, multiply every gathered source row by the per-edge
    factor, sum over the edges landing on each node, add the bias and clip at zero. -/
def layerR (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (hc : (⟨1, ![E]⟩ : Shape).BroadcastsInDim ⟨2, ![E, 1]⟩ ![0])
    (hbz : (⟨0, ![]⟩ : Shape).BroadcastsInDim ⟨1, ![E]⟩ ![]) (NN : BitVec 32)
    (h1 : (⟨1, ![E]⟩ : Shape).BroadcastsInDim ⟨2, ![E, 1]⟩ ![0])
    (h2 : (⟨2, ![E, 1]⟩ : Shape).BroadcastsInDim ⟨2, ![E, D]⟩ ![0, 1])
    (wfv : GatherDims.WF ⟨1, ![N]⟩ ⟨2, ![E, 1]⟩ ⟨1, ![E]⟩ [] [0] [] [0] [] 1 ![1])
    (d : DotDims ⟨2, ![N, K]⟩ ⟨2, ![K, D]⟩ ⟨2, ![N, D]⟩)
    (hbb1 : (⟨1, ![D]⟩ : Shape).BroadcastsInDim ⟨2, ![1, D]⟩ ![1]) (hbb2 : (⟨2, ![1, D]⟩ : Shape).BroadcastsInDim ⟨2, ![N, D]⟩ ![0, 1])
    (f : FVec Ideal ⟨2, ![N, K]⟩ .f32) (W : FVec Ideal ⟨2, ![K, D]⟩ .f32) (b : FVec Ideal ⟨1, ![D]⟩ .f32)
    (dinv : FVec Ideal ⟨1, ![N]⟩ .f32) (row col : IVec ⟨1, ![E]⟩ 32) : FVec Ideal ⟨2, ![N, D]⟩ .f32 :=
  maximumf (addf (normAgg wfs wfg hb0 hc hbz NN h1 h2 (Host.dotGeneral d none f W) (edgeNorm wfv hc hbz NN dinv row col) row col)
      (broadcastInDim ⟨2, ![N, D]⟩ ![0, 1] hbb2 (broadcastInDim ⟨2, ![1, D]⟩ ![1] hbb1 b)))
    (broadcastInDim ⟨2, ![N, D]⟩ ![] hb0 (constant (F := Ideal) ⟨0, ![]⟩ .f32 0x00000000#32))

/-! ## The two orders agree, and the layer is real -/

/-- On real features, weights and node factors the two orders give the same layer. -/
theorem layer_eq (hN : 0 < N) (hN31 : N < 2 ^ 31) wfs wfg hb0 hc hbz hsc hsb h1 h2 wfv
    (d : DotDims ⟨2, ![N, K]⟩ ⟨2, ![K, D]⟩ ⟨2, ![N, D]⟩) (hd : d = DotDims.plain N K D) hbb1 hbb2
    (f : FVec Ideal ⟨2, ![N, K]⟩ .f32) (W : FVec Ideal ⟨2, ![K, D]⟩ .f32) (b : FVec Ideal ⟨1, ![D]⟩ .f32)
    (dinv : FVec Ideal ⟨1, ![N]⟩ .f32) (row col : IVec ⟨1, ![E]⟩ 32)
    (hf : AllReal f) (hW : AllReal W) (hdv : AllReal dinv) :
    layerK wfs wfg hb0 hc hbz (BitVec.ofNat 32 N) hsc hsb f W b dinv row col
      = layerR wfs wfg hb0 hc hbz (BitVec.ofNat 32 N) h1 h2 wfv d hbb1 hbb2 f W b dinv row col := by
  funext i
  obtain ⟨n, q, rfl⟩ : ∃ (n : Fin N) (q : Fin D), i = ix2 n q := ⟨i 0, i 1, eq_ix2 i⟩
  -- the projection read at an entry
  have hdot : ∀ (p : Fin N) (q : Fin D),
      Host.dotGeneral d none f W (ix2 p q) = ∑ k : Fin K, f (ix2 p k) * W (ix2 k q) :=
    fun p q => Cert.LibPlainDot.dotGeneral_apply d hd none .single f W p q
  unfold layerK layerR
  rw [scaleBiasRelu_apply, plainAgg_apply hN, Cert.Row.shapeCast_row, maximumf_apply, addf_apply, normAgg_apply hN,
    Cert.Row.bcast_row_apply, broadcastInDim_scalar_apply, constant_apply]
  simp only [dotScale_apply, Cert.LibColumn.shapeCast_a_a1_apply, edgeNorm_apply hN, hdot]
  -- both sides are max (· + bias) 0 of an edge sum; the sums agree by moving the target's factor across the sum
  refine congrArg (fun t => max (t + Cert.Row.rowOf b (ix2 0 q)) zeroW) ?_
  exact scale_across_sum (lands col n)
    (fun e => ∑ k : Fin K, f (ix2 (src hN hbz (BitVec.ofNat 32 N) row e) k) * W (ix2 k q))
    (fun e => dinv (ix1 (src hN hbz (BitVec.ofNat 32 N) row e)))
    (fun e => dinv (ix1 (src hN hbz (BitVec.ofNat 32 N) col e))) (dinv (ix1 n))
    (fun e => real_sum _ _ (fun k => real_mul (hf _) (hW _))) (fun e => hdv _) (hdv _)
    (fun e he => by rw [src_of_lands hN hN31 hbz col n e he])

/-- The reference's layer of real features, weights, bias and node factors is real. -/
theorem layerR_real (hN : 0 < N) wfs wfg hb0 hc hbz NN h1 h2 wfv
    (d : DotDims ⟨2, ![N, K]⟩ ⟨2, ![K, D]⟩ ⟨2, ![N, D]⟩) (hd : d = DotDims.plain N K D) hbb1 hbb2
    (f : FVec Ideal ⟨2, ![N, K]⟩ .f32) (W : FVec Ideal ⟨2, ![K, D]⟩ .f32) (b : FVec Ideal ⟨1, ![D]⟩ .f32)
    (dinv : FVec Ideal ⟨1, ![N]⟩ .f32) (row col : IVec ⟨1, ![E]⟩ 32)
    (hf : AllReal f) (hW : AllReal W) (hb : AllReal b) (hdv : AllReal dinv) :
    AllReal (layerR wfs wfg hb0 hc hbz NN h1 h2 wfv d hbb1 hbb2 f W b dinv row col) := by
  intro i
  obtain ⟨n, q, rfl⟩ : ∃ (n : Fin N) (q : Fin D), i = ix2 n q := ⟨i 0, i 1, eq_ix2 i⟩
  have hdot : ∀ (p : Fin N) (q : Fin D),
      Host.dotGeneral d none f W (ix2 p q) = ∑ k : Fin K, f (ix2 p k) * W (ix2 k q) :=
    fun p q => Cert.LibPlainDot.dotGeneral_apply d hd none .single f W p q
  unfold layerR
  rw [maximumf_apply, addf_apply, normAgg_apply hN, Cert.Row.bcast_row_apply, broadcastInDim_scalar_apply, constant_apply]
  -- max of (a real edge sum plus a real bias entry) and the literal zero
  refine real_max (real_add (real_add_sum _ _ _ real_zero' (fun e => ?_)) (hb (ix1 q))) real_zero
  -- one term: a finite sum of products of reals, times the product of two node factors
  rw [edgeNorm_apply hN, hdot]
  exact real_mul (real_sum _ _ (fun k => real_mul (hf _) (hW _))) (real_mul (hdv _) (hdv _))

end Cert.LayerBridge

end
-- ==== Proof.ReferenceChain.lean ====
/-
  The idealized reference's result as one function of its arguments.

  The reference computes the same index vectors, degree and node factor d as the kernel, then three layers, each
  projecting the features, multiplying every gathered source row by the per-edge product d(source)·d(target), summing
  over the edges landing on each node, adding the bias and clipping at zero, and finally pools per graph. Its run's
  composed term is these functions applied in order.
-/
import proofs.«165064_j6184752906610_2_alg».proof.Proof.ReferenceRunPatched
import proofs.«165064_j6184752906610_2_alg».proof.Proof.LibLayerBridge

set_option maxRecDepth 16384

noncomputable section

open Idealize.ShloMosaic Idealize.ShloMosaic.TcCoe Idealize.SL.Sem Idealize.ShloMosaic.ValueIdx

namespace Cert.ReferenceIdeal.Chain

open Cert.ReferenceIdeal Cert.ReferenceIdeal.Gen Cert.GraphOps Cert.LayerBridge

/-- The source index of every edge: row 0 of the edge list, then one self-loop per node. -/
def rowF (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The target index of every edge: row 1 of the edge list, then one self-loop per node. -/
def colF (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The node factor: 1/sqrt of the number of edges landing on the node (0 where there is none). -/
def dinvF (ei : IVec S2x3200000 32) : FVec Ideal S100000 .f32 :=
  nodeFactor (N := 100000) bcast_S_S100000
    (degree (N := 100000) (E := 3300000) (dS := scatter_S100000_S3300000x1_S3300000_n_0_0_1) bcast_S_S100000 bcast_S_S3300000 bcast_S3300000_S3300000x1_0 (colF ei))

/-- One layer in the reference's order, at each of the three widths. -/
def layer1F (ei : IVec S2x3200000 32) (f : FVec Ideal S100000x128 .f32) (W : FVec Ideal S128x16 .f32) (b : FVec Ideal S16 .f32) : FVec Ideal S100000x16 .f32 :=
  layerR (N := 100000) (E := 3300000) (K := 128) (D := 16) scatter_S100000x16_S3300000x1_S3300000x16_1_0_0_1.wf
    gather_S100000x16_S3300000x1_S3300000x16_1_0_n_n_0_1_116.wf bcast_S_S100000x16 bcast_S3300000_S3300000x1_0 bcast_S_S3300000 100000#32
    bcast_S3300000_S3300000x1_0 bcast_S3300000x1_S3300000x16_0_1 gather_S100000_S3300000x1_S3300000_n_0_n_n_0_1_1.wf
    dot_S100000x128_S128x16_S100000x16_1_0_0_1_n_n bcast_S16_S1x16_1 bcast_S1x16_S100000x16_0_1
    f W b (dinvF ei) (rowF ei) (colF ei)
def layer2F (ei : IVec S2x3200000 32) (f : FVec Ideal S100000x16 .f32) (W : FVec Ideal S16x32 .f32) (b : FVec Ideal S32 .f32) : FVec Ideal S100000x32 .f32 :=
  layerR (N := 100000) (E := 3300000) (K := 16) (D := 32) scatter_S100000x32_S3300000x1_S3300000x32_1_0_0_1.wf
    gather_S100000x32_S3300000x1_S3300000x32_1_0_n_n_0_1_132.wf bcast_S_S100000x32 bcast_S3300000_S3300000x1_0 bcast_S_S3300000 100000#32
    bcast_S3300000_S3300000x1_0 bcast_S3300000x1_S3300000x32_0_1 gather_S100000_S3300000x1_S3300000_n_0_n_n_0_1_1.wf
    dot_S100000x16_S16x32_S100000x32_1_0_0_1_n_n bcast_S32_S1x32_1 bcast_S1x32_S100000x32_0_1
    f W b (dinvF ei) (rowF ei) (colF ei)
def layer3F (ei : IVec S2x3200000 32) (f : FVec Ideal S100000x32 .f32) (W : FVec Ideal S32x64 .f32) (b : FVec Ideal S64 .f32) : FVec Ideal S100000x64 .f32 :=
  layerR (N := 100000) (E := 3300000) (K := 32) (D := 64) scatter_S100000x64_S3300000x1_S3300000x64_1_0_0_1.wf
    gather_S100000x64_S3300000x1_S3300000x64_1_0_n_n_0_1_164.wf bcast_S_S100000x64 bcast_S3300000_S3300000x1_0 bcast_S_S3300000 100000#32
    bcast_S3300000_S3300000x1_0 bcast_S3300000x1_S3300000x64_0_1 gather_S100000_S3300000x1_S3300000_n_0_n_n_0_1_1.wf
    dot_S100000x32_S32x64_S100000x64_1_0_0_1_n_n bcast_S64_S1x64_1 bcast_S1x64_S100000x64_0_1
    f W b (dinvF ei) (rowF ei) (colF ei)

/-- The pooling tail: the node features summed per graph, divided by the graph's node count (at least one), projected
    to one number per graph, the bias added, the 1000×1 column flattened. -/
def tailR (h : FVec Ideal S100000x64 .f32) (batch : IVec S100000 32) (Wl : FVec Ideal S64x1 .f32) (bl : FVec Ideal S1 .f32) : FVec Ideal S1000 .f32 :=
  shapeCast S1000 (addf (Host.dotGeneral dot_S1000x64_S64x1_S1000x1_1_0_0_1_n_n none (Host.divf (Host.scatterAdd scatter_S1000x64_S100000x1_S100000x64_1_0_0_1 (broadcastInDim S1000x64 ![] bcast_S_S1000x64 (constant (F := Ideal) S_ .f32 0x00000000#32)) (broadcastInDim S100000x1 ![0] bcast_S100000_S100000x1_0 batch) h) (broadcastInDim S1000x64 ![0, 1] bcast_S1000x1_S1000x64_0_1 (broadcastInDim S1000x1 ![0] bcast_S1000_S1000x1_0 (maximumf (Host.scatterAdd scatter_S1000_S100000x1_S100000_n_0_0_1 (broadcastInDim S1000 ![] bcast_S_S1000 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S1000 ![] bcast_S_S1000 (constant (F := Ideal) S_ .f32 0x3F800000#32)))))) Wl) (broadcastInDim S1000x1 ![0, 1] bcast_S1x1_S1000x1_0_1 (broadcastInDim S1x1 ![1] bcast_S1_S1x1_1 bl))) shapeCasts_S1000x1_S1000

/-- The reference's result as a function of the eleven argument arrays. -/
def outRF (x : FVec Ideal S100000x128 .f32) (ei : IVec S2x3200000 32) (batch : IVec S100000 32)
    (W1 : FVec Ideal S128x16 .f32) (b1 : FVec Ideal S16 .f32) (W2 : FVec Ideal S16x32 .f32) (b2 : FVec Ideal S32 .f32)
    (W3 : FVec Ideal S32x64 .f32) (b3 : FVec Ideal S64 .f32) (Wl : FVec Ideal S64x1 .f32) (bl : FVec Ideal S1 .f32) : FVec Ideal S1000 .f32 :=
  tailR (layer3F ei (layer2F ei (layer1F ei x W1 b1) W2 b2) W3 b3) batch Wl bl

set_option maxHeartbeats 8000000 in
/-- The run's composed term is the three layers and the pooling tail applied in order. -/
theorem res_eq (m : (ℓ : Loc nD τ sig) → Buf (Elt Ideal) ℓ) (c : Dev nD) :
    Cert.ReferenceIdeal.ValueP.res_main_v100 (F := Ideal) m c
      = outRF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v100
  rfl

end Cert.ReferenceIdeal.Chain

end
-- ==== Proof.FiniteInputs.lean ====
/-
  What the precondition "every float input is finite" says over the extended reals.

  The precondition is one bit: the conjunction, over the nine float arguments x, of "every entry of x has
  |x| < +∞", each of these computed as the conjunction over every axis of x, started from 1, of the entrywise
  comparisons |x i| < +∞. (The two integer arguments carry no condition.)

  * A conjunction of bits is 1 only when both are, so the bit being 1 gives each of the nine conjuncts 1.
  * A conjunction over every axis lands in an array with one index; it is 1 only when every entry's comparison is 1.
  * Over the extended reals |x| is max x (−x) and the literal +∞ is ⊤. At x = ⊤ and at x = ⊥ the absolute value is ⊤,
    which is not below ⊤; so |x| < ⊤ leaves only the real numbers.

  Hence each float argument has every entry a real number. The middle two steps are proved once, for an array of any
  shape, and used nine times.
-/
import proofs.«165064_j6184752906610_2_alg».proof.Pre_finite_inputs
import proofs.«165064_j6184752906610_2_alg».proof.Proof.Gen.Pre_finite_inputs
import proofs.«165064_j6184752906610_2_alg».proof.Proof.LibRealEntries
import Idealize.ShloMosaic.Lib.ValueIdx
import Idealize.ShloMosaic.Lib.ReduceAll

noncomputable section

namespace Cert.FiniteInputs

open Idealize.ShloMosaic Cert.LibRealEntries Cert.Pre_finite_inputs

/-- The literal +∞ is the top of the extended reals. -/
theorem ofBits_inf : Ideal.ofBits .f32 0x7F800000#32 = (⊤ : EReal) := by simp [Ideal.ofBits, Ideal.ieee]

/-- An extended real whose absolute value max x (−x) is below +∞ is a real number: at either infinity the absolute
    value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- "All entries have |x| < +∞", computed as the conjunction over every axis of the entrywise comparisons, is 1 only
    when every entry of x is a real number. -/
theorem allReal_of_all {S : Shape} {axes : List (Fin S.rank)} (x : FVec Ideal S .f32)
    (hb : (⟨0, ![]⟩ : Shape).BroadcastsInDim S ![]) (hr : S.ReducesTo axes ⟨0, ![]⟩)
    (hu : 0 < (⟨0, ![]⟩ : Shape).numel)
    (h : Host.reduce IntOp.andi
        (cmpf .olt (Host.absf x) (broadcastInDim S ![] hb (constant (F := Ideal) ⟨0, ![]⟩ .f32 0x7F800000#32)))
        (constantI ⟨0, ![]⟩ 1 1#1) hr hu ValueIdx.ix0 = 1#1) :
    AllReal x := by
  intro i
  -- a rank-0 array has one index, so the conjunction over every axis is 1 only if the comparison at i is 1
  haveI : Subsingleton (⟨0, ![]⟩ : Shape).Idx := ⟨fun _ _ => funext fun d => d.elim0⟩
  have h1 := Host.reduce_andi_all _ _ hr hu ValueIdx.ix0 h i
  -- that comparison is |x i| < +∞: the spread scalar reads the literal at every index
  have h3 : Ideal.cmp .olt (max (x i) (-(x i))) (Ideal.ofBits .f32 0x7F800000#32) = 1#1 := h1
  rw [ofBits_inf] at h3
  have h2 : max (x i) (-(x i)) < ⊤ := by
    unfold Ideal.cmp at h3
    by_contra hn
    simp [hn] at h3
  exact real_of_abs_lt_top _ h2

/-- The precondition "every float input is finite", evaluated to all ones, makes every entry of every float argument a
    real number. -/
theorem reals_of_pre [Cert.Pre_finite_inputs.Facts]
    (a0 : FVec Ideal S100000x128 .f32) (a1 : IVec S2x3200000 32) (a2 : IVec S100000 32) (a3 : FVec Ideal S128x16 .f32)
    (a4 : FVec Ideal S16 .f32) (a5 : FVec Ideal S16x32 .f32) (a6 : FVec Ideal S32 .f32) (a7 : FVec Ideal S32x64 .f32)
    (a8 : FVec Ideal S64 .f32) (a9 : FVec Ideal S64x1 .f32) (a10 : FVec Ideal S1 .f32)
    (h : Cert.Pre_finite_inputs.fn (F := Ideal) a0 a1 a2 a3 a4 a5 a6 a7 a8 a9 a10 = (fun _ => 1#1)) :
    AllReal a0 ∧ AllReal a3 ∧ AllReal a4 ∧ AllReal a5 ∧ AllReal a6 ∧ AllReal a7 ∧ AllReal a8 ∧ AllReal a9 ∧ AllReal a10 := by
  -- the one entry of the precondition: a conjunction of nine "all entries finite" bits
  have h0 := congrFun h ValueIdx.ix0
  dsimp only [fn, fn_part1, fn_part2, andi] at h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨allReal_of_all a0 _ _ _ h0, allReal_of_all a3 _ _ _ h3, allReal_of_all a4 _ _ _ h4,
    allReal_of_all a5 _ _ _ h5, allReal_of_all a6 _ _ _ h6, allReal_of_all a7 _ _ _ h7,
    allReal_of_all a8 _ _ _ h8, allReal_of_all a9 _ _ _ h9, allReal_of_all a10 _ _ _ h10⟩

end Cert.FiniteInputs

end
-- ==== Proof.Bridge.lean ====
/-
  The two programs compute the same function of their arguments when the float arguments are real.

  The kernel's three layers are, one after the other, the layer in the kernel's order (scale the projected rows by the
  node factor, sum over the edges, scale again, add the bias, clip); the reference's are the layer in the reference's
  order (per-edge product inside the sum). On real features, weights and node factors the two orders agree, and the
  reference's layer of real data is real again, so the agreement carries from layer to layer. The node factor is real
  whatever the indices are. After the third layer both programs apply the same pooling tail.
-/
import proofs.«165064_j6184752906610_2_alg».proof.Proof.KernelChain
import proofs.«165064_j6184752906610_2_alg».proof.Proof.ReferenceChain
import proofs.«165064_j6184752906610_2_alg».proof.Proof.LibLayerBridge

set_option maxRecDepth 16384

noncomputable section

open Idealize.ShloMosaic Idealize.ShloMosaic.TcCoe Idealize.SL.Sem Idealize.ShloMosaic.ValueIdx

namespace Cert.Bridge

open Cert.GraphOps Cert.LayerSteps Cert.LayerBridge Cert.LibRealEntries Cert.KernelIdeal.Chain Cert.KernelIdeal.Folds Cert.ReferenceIdeal.Chain

variable (m : (ℓ : Loc Cert.KernelIdeal.nD Cert.KernelIdeal.τ Cert.KernelIdeal.sig) → Buf (Elt Ideal) ℓ)

/-- The node factor is real at every node. -/
theorem dinv_real (c : Dev Cert.KernelIdeal.nD) : AllReal (dinvV m c) := by
  unfold dinvV
  exact nodeFactor_real _ _ _ _

/-- The third layer's features in the kernel, as the kernel's order of a layer applied three times. -/
theorem hK_layers (c : Dev Cert.KernelIdeal.nD) :
    hK m c = (layerK (N := 100000) (E := 3300000) (K := 32) (D := 64) Cert.KernelIdeal.scatter_S100000x64_S3300000x1_S3300000x64_1_0_0_1.wf
      Cert.KernelIdeal.gather_S100000x64_S3300000x1_S3300000x64_1_0_n_n_0_1_164.wf Cert.KernelIdeal.Gen.bcast_S_S100000x64 Cert.KernelIdeal.Gen.bcast_S3300000_S3300000x1_0 Cert.KernelIdeal.Gen.bcast_S_S3300000 100000#32
      Cert.KernelIdeal.Gen.shapeCasts_S100000_S100000x1 Cert.KernelIdeal.Gen.shapeCasts_S64_S1x64
      (layerK (N := 100000) (E := 3300000) (K := 16) (D := 32) Cert.KernelIdeal.scatter_S100000x32_S3300000x1_S3300000x32_1_0_0_1.wf
      Cert.KernelIdeal.gather_S100000x32_S3300000x1_S3300000x32_1_0_n_n_0_1_132.wf Cert.KernelIdeal.Gen.bcast_S_S100000x32 Cert.KernelIdeal.Gen.bcast_S3300000_S3300000x1_0 Cert.KernelIdeal.Gen.bcast_S_S3300000 100000#32
      Cert.KernelIdeal.Gen.shapeCasts_S100000_S100000x1 Cert.KernelIdeal.Gen.shapeCasts_S32_S1x32
      (layerK (N := 100000) (E := 3300000) (K := 128) (D := 16) Cert.KernelIdeal.scatter_S100000x16_S3300000x1_S3300000x16_1_0_0_1.wf
      Cert.KernelIdeal.gather_S100000x16_S3300000x1_S3300000x16_1_0_n_n_0_1_116.wf Cert.KernelIdeal.Gen.bcast_S_S100000x16 Cert.KernelIdeal.Gen.bcast_S3300000_S3300000x1_0 Cert.KernelIdeal.Gen.bcast_S_S3300000 100000#32
      Cert.KernelIdeal.Gen.shapeCasts_S100000_S100000x1 Cert.KernelIdeal.Gen.shapeCasts_S16_S1x16
      (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (dinvV m c) (rowV m c) (colV m c)) (m ((c : Thread Cert.KernelIdeal.nD Cert.KernelIdeal.τ).loc Cert.KernelIdeal.main_arg5)) (m ((c : Thread Cert.KernelIdeal.nD Cert.KernelIdeal.τ).loc Cert.KernelIdeal.main_arg6)) (dinvV m c) (rowV m c) (colV m c)) (m ((c : Thread Cert.KernelIdeal.nD Cert.KernelIdeal.τ).loc Cert.KernelIdeal.main_arg7)) (m ((c : Thread Cert.KernelIdeal.nD Cert.KernelIdeal.τ).loc Cert.KernelIdeal.main_arg8)) (dinvV m c) (rowV m c) (colV m c)) := rfl

set_option maxHeartbeats 4000000 in
/-- The kernel's result is the reference's function of the same argument arrays, when the float arguments are real. -/
theorem out_eq (c : Dev Cert.KernelIdeal.nD)
    (h0 : AllReal (m ((c : Thread Cert.KernelIdeal.nD Cert.KernelIdeal.τ).loc Cert.KernelIdeal.main_arg0))) (h3 : AllReal (m ((c : Thread Cert.KernelIdeal.nD Cert.KernelIdeal.τ).loc Cert.KernelIdeal.main_arg3))) (h4 : AllReal (m ((c : Thread Cert.KernelIdeal.nD Cert.KernelIdeal.τ).loc Cert.KernelIdeal.main_arg4))) (h5 : AllReal (m ((c : Thread Cert.KernelIdeal.nD Cert.KernelIdeal.τ).loc Cert.KernelIdeal.main_arg5))) (h6 : AllReal (m ((c : Thread Cert.KernelIdeal.nD Cert.KernelIdeal.τ).loc Cert.KernelIdeal.main_arg6)))
    (h7 : AllReal (m ((c : Thread Cert.KernelIdeal.nD Cert.KernelIdeal.τ).loc Cert.KernelIdeal.main_arg7))) (h8 : AllReal (m ((c : Thread Cert.KernelIdeal.nD Cert.KernelIdeal.τ).loc Cert.KernelIdeal.main_arg8))) :
    outK m c = outRF (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  have hd : AllReal (dinvV m c) := dinv_real m c
  -- layer 1
  have e1 := layer_eq (N := 100000) (E := 3300000) (K := 128) (D := 16) (by norm_num) (by norm_num) Cert.KernelIdeal.scatter_S100000x16_S3300000x1_S3300000x16_1_0_0_1.wf
      Cert.KernelIdeal.gather_S100000x16_S3300000x1_S3300000x16_1_0_n_n_0_1_116.wf Cert.KernelIdeal.Gen.bcast_S_S100000x16 Cert.KernelIdeal.Gen.bcast_S3300000_S3300000x1_0 Cert.KernelIdeal.Gen.bcast_S_S3300000
      Cert.KernelIdeal.Gen.shapeCasts_S100000_S100000x1 Cert.KernelIdeal.Gen.shapeCasts_S16_S1x16
      Cert.ReferenceIdeal.Gen.bcast_S3300000_S3300000x1_0 Cert.ReferenceIdeal.Gen.bcast_S3300000x1_S3300000x16_0_1 Cert.ReferenceIdeal.gather_S100000_S3300000x1_S3300000_n_0_n_n_0_1_1.wf
      Cert.ReferenceIdeal.dot_S100000x128_S128x16_S100000x16_1_0_0_1_n_n rfl Cert.ReferenceIdeal.Gen.bcast_S16_S1x16_1 Cert.ReferenceIdeal.Gen.bcast_S1x16_S100000x16_0_1
      (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (dinvV m c) (rowV m c) (colV m c) h0 h3 hd
  have r1 := layerR_real (N := 100000) (E := 3300000) (K := 128) (D := 16) (by norm_num) Cert.KernelIdeal.scatter_S100000x16_S3300000x1_S3300000x16_1_0_0_1.wf
      Cert.KernelIdeal.gather_S100000x16_S3300000x1_S3300000x16_1_0_n_n_0_1_116.wf Cert.KernelIdeal.Gen.bcast_S_S100000x16 Cert.KernelIdeal.Gen.bcast_S3300000_S3300000x1_0 Cert.KernelIdeal.Gen.bcast_S_S3300000 100000#32
      Cert.ReferenceIdeal.Gen.bcast_S3300000_S3300000x1_0 Cert.ReferenceIdeal.Gen.bcast_S3300000x1_S3300000x16_0_1 Cert.ReferenceIdeal.gather_S100000_S3300000x1_S3300000_n_0_n_n_0_1_1.wf
      Cert.ReferenceIdeal.dot_S100000x128_S128x16_S100000x16_1_0_0_1_n_n rfl Cert.ReferenceIdeal.Gen.bcast_S16_S1x16_1 Cert.ReferenceIdeal.Gen.bcast_S1x16_S100000x16_0_1
      (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (dinvV m c) (rowV m c) (colV m c) h0 h3 h4 hd
  generalize hL1 : (layerR (N := 100000) (E := 3300000) (K := 128) (D := 16) Cert.KernelIdeal.scatter_S100000x16_S3300000x1_S3300000x16_1_0_0_1.wf
      Cert.KernelIdeal.gather_S100000x16_S3300000x1_S3300000x16_1_0_n_n_0_1_116.wf Cert.KernelIdeal.Gen.bcast_S_S100000x16 Cert.KernelIdeal.Gen.bcast_S3300000_S3300000x1_0 Cert.KernelIdeal.Gen.bcast_S_S3300000 100000#32
      Cert.ReferenceIdeal.Gen.bcast_S3300000_S3300000x1_0 Cert.ReferenceIdeal.Gen.bcast_S3300000x1_S3300000x16_0_1 Cert.ReferenceIdeal.gather_S100000_S3300000x1_S3300000_n_0_n_n_0_1_1.wf
      Cert.ReferenceIdeal.dot_S100000x128_S128x16_S100000x16_1_0_0_1_n_n Cert.ReferenceIdeal.Gen.bcast_S16_S1x16_1 Cert.ReferenceIdeal.Gen.bcast_S1x16_S100000x16_0_1
      (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (dinvV m c) (rowV m c) (colV m c)) = L1 at e1 r1
  -- layer 2
  have e2 := layer_eq (N := 100000) (E := 3300000) (K := 16) (D := 32) (by norm_num) (by norm_num) Cert.KernelIdeal.scatter_S100000x32_S3300000x1_S3300000x32_1_0_0_1.wf
      Cert.KernelIdeal.gather_S100000x32_S3300000x1_S3300000x32_1_0_n_n_0_1_132.wf Cert.KernelIdeal.Gen.bcast_S_S100000x32 Cert.KernelIdeal.Gen.bcast_S3300000_S3300000x1_0 Cert.KernelIdeal.Gen.bcast_S_S3300000
      Cert.KernelIdeal.Gen.shapeCasts_S100000_S100000x1 Cert.KernelIdeal.Gen.shapeCasts_S32_S1x32
      Cert.ReferenceIdeal.Gen.bcast_S3300000_S3300000x1_0 Cert.ReferenceIdeal.Gen.bcast_S3300000x1_S3300000x32_0_1 Cert.ReferenceIdeal.gather_S100000_S3300000x1_S3300000_n_0_n_n_0_1_1.wf
      Cert.ReferenceIdeal.dot_S100000x16_S16x32_S100000x32_1_0_0_1_n_n rfl Cert.ReferenceIdeal.Gen.bcast_S32_S1x32_1 Cert.ReferenceIdeal.Gen.bcast_S1x32_S100000x32_0_1
      L1 (m ((c : Thread Cert.KernelIdeal.nD Cert.KernelIdeal.τ).loc Cert.KernelIdeal.main_arg5)) (m ((c : Thread Cert.KernelIdeal.nD Cert.KernelIdeal.τ).loc Cert.KernelIdeal.main_arg6)) (dinvV m c) (rowV m c) (colV m c) r1 h5 hd
  have r2 := layerR_real (N := 100000) (E := 3300000) (K := 16) (D := 32) (by norm_num) Cert.KernelIdeal.scatter_S100000x32_S3300000x1_S3300000x32_1_0_0_1.wf
      Cert.KernelIdeal.gather_S100000x32_S3300000x1_S3300000x32_1_0_n_n_0_1_132.wf Cert.KernelIdeal.Gen.bcast_S_S100000x32 Cert.KernelIdeal.Gen.bcast_S3300000_S3300000x1_0 Cert.KernelIdeal.Gen.bcast_S_S3300000 100000#32
      Cert.ReferenceIdeal.Gen.bcast_S3300000_S3300000x1_0 Cert.ReferenceIdeal.Gen.bcast_S3300000x1_S3300000x32_0_1 Cert.ReferenceIdeal.gather_S100000_S3300000x1_S3300000_n_0_n_n_0_1_1.wf
      Cert.ReferenceIdeal.dot_S100000x16_S16x32_S100000x32_1_0_0_1_n_n rfl Cert.ReferenceIdeal.Gen.bcast_S32_S1x32_1 Cert.ReferenceIdeal.Gen.bcast_S1x32_S100000x32_0_1
      L1 (m ((c : Thread Cert.KernelIdeal.nD Cert.KernelIdeal.τ).loc Cert.KernelIdeal.main_arg5)) (m ((c : Thread Cert.KernelIdeal.nD Cert.KernelIdeal.τ).loc Cert.KernelIdeal.main_arg6)) (dinvV m c) (rowV m c) (colV m c) r1 h5 h6 hd
  generalize hL2 : (layerR (N := 100000) (E := 3300000) (K := 16) (D := 32) Cert.KernelIdeal.scatter_S100000x32_S3300000x1_S3300000x32_1_0_0_1.wf
      Cert.KernelIdeal.gather_S100000x32_S3300000x1_S3300000x32_1_0_n_n_0_1_132.wf Cert.KernelIdeal.Gen.bcast_S_S100000x32 Cert.KernelIdeal.Gen.bcast_S3300000_S3300000x1_0 Cert.KernelIdeal.Gen.bcast_S_S3300000 100000#32
      Cert.ReferenceIdeal.Gen.bcast_S3300000_S3300000x1_0 Cert.ReferenceIdeal.Gen.bcast_S3300000x1_S3300000x32_0_1 Cert.ReferenceIdeal.gather_S100000_S3300000x1_S3300000_n_0_n_n_0_1_1.wf
      Cert.ReferenceIdeal.dot_S100000x16_S16x32_S100000x32_1_0_0_1_n_n Cert.ReferenceIdeal.Gen.bcast_S32_S1x32_1 Cert.ReferenceIdeal.Gen.bcast_S1x32_S100000x32_0_1
      L1 (m ((c : Thread Cert.KernelIdeal.nD Cert.KernelIdeal.τ).loc Cert.KernelIdeal.main_arg5)) (m ((c : Thread Cert.KernelIdeal.nD Cert.KernelIdeal.τ).loc Cert.KernelIdeal.main_arg6)) (dinvV m c) (rowV m c) (colV m c)) = L2 at e2 r2
  -- layer 3
  have e3 := layer_eq (N := 100000) (E := 3300000) (K := 32) (D := 64) (by norm_num) (by norm_num) Cert.KernelIdeal.scatter_S100000x64_S3300000x1_S3300000x64_1_0_0_1.wf
      Cert.KernelIdeal.gather_S100000x64_S3300000x1_S3300000x64_1_0_n_n_0_1_164.wf Cert.KernelIdeal.Gen.bcast_S_S100000x64 Cert.KernelIdeal.Gen.bcast_S3300000_S3300000x1_0 Cert.KernelIdeal.Gen.bcast_S_S3300000
      Cert.KernelIdeal.Gen.shapeCasts_S100000_S100000x1 Cert.KernelIdeal.Gen.shapeCasts_S64_S1x64
      Cert.ReferenceIdeal.Gen.bcast_S3300000_S3300000x1_0 Cert.ReferenceIdeal.Gen.bcast_S3300000x1_S3300000x64_0_1 Cert.ReferenceIdeal.gather_S100000_S3300000x1_S3300000_n_0_n_n_0_1_1.wf
      Cert.ReferenceIdeal.dot_S100000x32_S32x64_S100000x64_1_0_0_1_n_n rfl Cert.ReferenceIdeal.Gen.bcast_S64_S1x64_1 Cert.ReferenceIdeal.Gen.bcast_S1x64_S100000x64_0_1
      L2 (m ((c : Thread Cert.KernelIdeal.nD Cert.KernelIdeal.τ).loc Cert.KernelIdeal.main_arg7)) (m ((c : Thread Cert.KernelIdeal.nD Cert.KernelIdeal.τ).loc Cert.KernelIdeal.main_arg8)) (dinvV m c) (rowV m c) (colV m c) r2 h7 hd
  -- the kernel's features are the reference's
  have hfeat : hK m c = layer3F (m ((c : Thread Cert.KernelIdeal.nD Cert.KernelIdeal.τ).loc Cert.KernelIdeal.main_arg1)) (layer2F (m ((c : Thread Cert.KernelIdeal.nD Cert.KernelIdeal.τ).loc Cert.KernelIdeal.main_arg1)) (layer1F (m ((c : Thread Cert.KernelIdeal.nD Cert.KernelIdeal.τ).loc Cert.KernelIdeal.main_arg1)) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4))) (m ((c : Thread Cert.KernelIdeal.nD Cert.KernelIdeal.τ).loc Cert.KernelIdeal.main_arg5)) (m ((c : Thread Cert.KernelIdeal.nD Cert.KernelIdeal.τ).loc Cert.KernelIdeal.main_arg6))) (m ((c : Thread Cert.KernelIdeal.nD Cert.KernelIdeal.τ).loc Cert.KernelIdeal.main_arg7)) (m ((c : Thread Cert.KernelIdeal.nD Cert.KernelIdeal.τ).loc Cert.KernelIdeal.main_arg8)) := by
    rw [hK_layers, e1, e2, e3, ← hL2, ← hL1]
    rfl
  unfold outK outRF
  rw [hfeat]
  rfl

end Cert.Bridge

end
-- ==== Proof.lean ====
/-
  The certificate of a three-layer graph convolution network with mean pooling, as a Pallas kernel pipeline against its
  jnp reference.

  Both programs add a self-loop to every node, count the edges landing on each node (the degree) and take the node
  factor d = 1/sqrt(degree) (0 where the degree is 0). A layer with features h, weights W and bias b is, in the
  reference,   relu( Σ_{e → n} (h·W)(src e) · (d(src e)·d(tgt e)) + b ),   the sum over the edges e landing on node n.
  The kernel moves the target's factor out of the sum: it scales the projected rows by d once (inside a region), lets
  the host gather and scatter-add them unweighted, and scales the aggregate by d(n) in the next region, where the bias,
  the clip at zero and the next layer's projection are fused:   relu( (Σ_{e → n} (h·W)(src e)·d(src e)) · d(n) + b ).
  An edge landing on n has target n, so the two agree wherever the factor can be moved across the sum; on the extended
  reals that takes real terms, which the precondition (every float input finite) gives for the inputs, the node factor
  has by construction, and each layer passes on to the next. The matrix products round their operands to a shorter
  float format in the kernel only, which is the identity on the extended reals. After the third layer both programs
  pool the node features per graph and project them in the same way.

  The frames of the two kernel programs are the generated ones; the reference's frame is its run with the result
  dropped; the idealization rewrote nothing, so there is nothing to preserve beyond the program's own text.
-/
import proofs.«165064_j6184752906610_2_alg».proof.Defs
import proofs.«165064_j6184752906610_2_alg».proof.Proof.Gen.Kernel
import proofs.«165064_j6184752906610_2_alg».proof.Proof.Gen.Kernel.Skeleton
import proofs.«165064_j6184752906610_2_alg».proof.Proof.Gen.Kernel.Launch
import proofs.«165064_j6184752906610_2_alg».proof.Proof.Gen.Kernel.Points
import proofs.«165064_j6184752906610_2_alg».proof.Proof.Gen.Kernel.Frame
import proofs.«165064_j6184752906610_2_alg».proof.Proof.Gen.KernelIdeal
import proofs.«165064_j6184752906610_2_alg».proof.Proof.Gen.KernelIdeal.Skeleton
import proofs.«165064_j6184752906610_2_alg».proof.Proof.Gen.KernelIdeal.Launch
import proofs.«165064_j6184752906610_2_alg».proof.Proof.Gen.KernelIdeal.Points
import proofs.«165064_j6184752906610_2_alg».proof.Proof.Gen.KernelIdeal.Frame
import proofs.«165064_j6184752906610_2_alg».proof.Proof.Gen.ReferenceIdeal
import proofs.«165064_j6184752906610_2_alg».proof.Proof.Gen.Pre_finite_inputs
import proofs.«165064_j6184752906610_2_alg».proof.Proof.ReferenceRunPatched
import proofs.«165064_j6184752906610_2_alg».proof.Proof.KernelChain
import proofs.«165064_j6184752906610_2_alg».proof.Proof.ReferenceChain
import proofs.«165064_j6184752906610_2_alg».proof.Proof.FiniteInputs
import proofs.«165064_j6184752906610_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, both idealized programs end with the same result: the kernel's run ends at
    its function of the arguments, the reference's at its own, and on finite float inputs the two functions agree. -/
theorem algebraic : Cert.algebraic_KernelIdeal_ReferenceIdeal := by
  intro m ρ m' ρ' hpre hagree
  refine ⟨fun c => Cert.KernelIdeal.Chain.outK m c, Cert.KernelIdeal.Chain.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10⟩ := hagree c
  obtain ⟨r0, r3, r4, r5, r6, r7, r8, -, -⟩ := Cert.FiniteInputs.reals_of_pre _ _ _ _ _ _ _ _ _ _ _ (hpre c)
  rw [Cert.ReferenceIdeal.Chain.res_eq, a0, a1, a2, a3, a4, a5, a6, a7, a8, a9, a10]
  exact (Cert.Bridge.out_eq m c r0 r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
